-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3328 : Shape := ⟨2, ![16384, 3328]⟩
abbrev S16384x128 : Shape := ⟨2, ![16384, 128]⟩
abbrev S_ : Shape := ⟨0, ![]⟩

class Facts : Prop where
  bcast_S_S16384x3328 : S_.BroadcastsInDim S16384x3328 (![] : Fin 0 → Fin S16384x3328.rank)
  reducesTo_S16384x3328_S_d0_1 : S16384x3328.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S16384x3328 .f32) (main_arg1 : FVec F S16384x128 .f32) : IVec S_ 1 :=
  let main_v0 : FVec F S16384x3328 .f32 := Host.absf main_arg0
  let main_cst : FVec F S_ .f32 := constant S_ .f32 0x7F800000#32
  let main_v1 : FVec F S16384x3328 .f32 := broadcastInDim S16384x3328 ![] bcast_S_S16384x3328 main_cst
  let main_v2 : IVec S16384x3328 1 := cmpf .olt main_v0 main_v1
  let main_c : IVec S_ 1 := constantI S_ 1 1#1
  let main_v3 : IVec S_ 1 := (fun x v => Host.reduce IntOp.andi x v reducesTo_S16384x3328_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  main_v8
-- ==== Kernel.lean ====
abbrev S16384x3328 : Shape := ⟨2, ![16384, 3328]⟩
abbrev S16384x128 : Shape := ⟨2, ![16384, 128]⟩
abbrev S16384x3781 : Shape := ⟨2, ![16384, 3781]⟩
abbrev S512x3328 : Shape := ⟨2, ![512, 3328]⟩
abbrev S512x128 : Shape := ⟨2, ![512, 128]⟩
abbrev S512x3781 : Shape := ⟨2, ![512, 3781]⟩
abbrev S512x3200 : Shape := ⟨2, ![512, 3200]⟩
abbrev S512x25x128 : Shape := ⟨3, ![512, 25, 128]⟩
abbrev S512x25 : Shape := ⟨2, ![512, 25]⟩
abbrev S512x3072 : Shape := ⟨2, ![512, 3072]⟩
abbrev S512x24x128 : Shape := ⟨3, ![512, 24, 128]⟩
abbrev S512x24 : Shape := ⟨2, ![512, 24]⟩
abbrev S512x2944 : Shape := ⟨2, ![512, 2944]⟩
abbrev S512x23x128 : Shape := ⟨3, ![512, 23, 128]⟩
abbrev S512x23 : Shape := ⟨2, ![512, 23]⟩
abbrev S512x2816 : Shape := ⟨2, ![512, 2816]⟩
abbrev S512x22x128 : Shape := ⟨3, ![512, 22, 128]⟩
abbrev S512x22 : Shape := ⟨2, ![512, 22]⟩
abbrev S512x2688 : Shape := ⟨2, ![512, 2688]⟩
abbrev S512x21x128 : Shape := ⟨3, ![512, 21, 128]⟩
abbrev S512x21 : Shape := ⟨2, ![512, 21]⟩
abbrev S512x2560 : Shape := ⟨2, ![512, 2560]⟩
abbrev S512x20x128 : Shape := ⟨3, ![512, 20, 128]⟩
abbrev S512x20 : Shape := ⟨2, ![512, 20]⟩
abbrev S512x2432 : Shape := ⟨2, ![512, 2432]⟩
abbrev S512x19x128 : Shape := ⟨3, ![512, 19, 128]⟩
abbrev S512x19 : Shape := ⟨2, ![512, 19]⟩
abbrev S512x2304 : Shape := ⟨2, ![512, 2304]⟩
abbrev S512x18x128 : Shape := ⟨3, ![512, 18, 128]⟩
abbrev S512x18 : Shape := ⟨2, ![512, 18]⟩
abbrev S512x2176 : Shape := ⟨2, ![512, 2176]⟩
abbrev S512x17x128 : Shape := ⟨3, ![512, 17, 128]⟩
abbrev S512x17 : Shape := ⟨2, ![512, 17]⟩
abbrev S512x2048 : Shape := ⟨2, ![512, 2048]⟩
abbrev S512x16x128 : Shape := ⟨3, ![512, 16, 128]⟩
abbrev S512x16 : Shape := ⟨2, ![512, 16]⟩
abbrev S512x1920 : Shape := ⟨2, ![512, 1920]⟩
abbrev S512x15x128 : Shape := ⟨3, ![512, 15, 128]⟩
abbrev S512x15 : Shape := ⟨2, ![512, 15]⟩
abbrev S512x1792 : Shape := ⟨2, ![512, 1792]⟩
abbrev S512x14x128 : Shape := ⟨3, ![512, 14, 128]⟩
abbrev S512x14 : Shape := ⟨2, ![512, 14]⟩
abbrev S512x1664 : Shape := ⟨2, ![512, 1664]⟩
abbrev S512x13x128 : Shape := ⟨3, ![512, 13, 128]⟩
abbrev S512x13 : Shape := ⟨2, ![512, 13]⟩
abbrev S512x1536 : Shape := ⟨2, ![512, 1536]⟩
abbrev S512x12x128 : Shape := ⟨3, ![512, 12, 128]⟩
abbrev S512x12 : Shape := ⟨2, ![512, 12]⟩
abbrev S512x1408 : Shape := ⟨2, ![512, 1408]⟩
abbrev S512x11x128 : Shape := ⟨3, ![512, 11, 128]⟩
abbrev S512x11 : Shape := ⟨2, ![512, 11]⟩
abbrev S512x1280 : Shape := ⟨2, ![512, 1280]⟩
abbrev S512x10x128 : Shape := ⟨3, ![512, 10, 128]⟩
abbrev S512x10 : Shape := ⟨2, ![512, 10]⟩
abbrev S512x1152 : Shape := ⟨2, ![512, 1152]⟩
abbrev S512x9x128 : Shape := ⟨3, ![512, 9, 128]⟩
abbrev S512x9 : Shape := ⟨2, ![512, 9]⟩
abbrev S512x1024 : Shape := ⟨2, ![512, 1024]⟩
abbrev S512x8x128 : Shape := ⟨3, ![512, 8, 128]⟩
abbrev S512x8 : Shape := ⟨2, ![512, 8]⟩
abbrev S512x896 : Shape := ⟨2, ![512, 896]⟩
abbrev S512x7x128 : Shape := ⟨3, ![512, 7, 128]⟩
abbrev S512x7 : Shape := ⟨2, ![512, 7]⟩
abbrev S512x768 : Shape := ⟨2, ![512, 768]⟩
abbrev S512x6x128 : Shape := ⟨3, ![512, 6, 128]⟩
abbrev S512x6 : Shape := ⟨2, ![512, 6]⟩
abbrev S512x640 : Shape := ⟨2, ![512, 640]⟩
abbrev S512x5x128 : Shape := ⟨3, ![512, 5, 128]⟩
abbrev S512x5 : Shape := ⟨2, ![512, 5]⟩
abbrev S512x512 : Shape := ⟨2, ![512, 512]⟩
abbrev S512x4x128 : Shape := ⟨3, ![512, 4, 128]⟩
abbrev S512x4 : Shape := ⟨2, ![512, 4]⟩
abbrev S512x384 : Shape := ⟨2, ![512, 384]⟩
abbrev S512x3x128 : Shape := ⟨3, ![512, 3, 128]⟩
abbrev S512x3 : Shape := ⟨2, ![512, 3]⟩
abbrev S512x256 : Shape := ⟨2, ![512, 256]⟩
abbrev S512x2x128 : Shape := ⟨3, ![512, 2, 128]⟩
abbrev S512x2 : Shape := ⟨2, ![512, 2]⟩
abbrev S512x1x128 : Shape := ⟨3, ![512, 1, 128]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x3328, .f32⟩
  | .hbm, ⟨1, _⟩ => ⟨S16384x128, .f32⟩
  | .hbm, ⟨2, _⟩ => ⟨S16384x3781, .f32⟩
  | .local _ .vmem, ⟨0, _⟩ => ⟨S512x3328, .f32⟩
  | .local _ .vmem, ⟨1, _⟩ => ⟨S512x3328, .f32⟩
  | .local _ .vmem, ⟨2, _⟩ => ⟨S512x128, .f32⟩
  | .local _ .vmem, ⟨3, _⟩ => ⟨S512x128, .f32⟩
  | .local _ .vmem, ⟨4, _⟩ => ⟨S512x3781, .f32⟩
  | .local _ .vmem, ⟨5, _⟩ => ⟨S512x3781, .f32⟩
  | _, _ => ⟨S16384x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3328 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3781 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x3328_S512x3328_0_0 : ∀ a, (![0, 0] : Fin 2 → Nat) a + S512x3328.size a ≤ S512x3328.size a
  h_S512x3328 : 0 < S512x3328.numel
  inb_S512x3781_S512x3328_0_0 : ∀ a, (![0, 0] : Fin 2 → Nat) a + S512x3328.size a ≤ S512x3781.size a
  inb_S512x128_S512x128_0_0 : ∀ a, (![0, 0] : Fin 2 → Nat) a + S512x128.size a ≤ S512x128.size a
  h_S512x128 : 0 < S512x128.numel
  inb_S512x3781_S512x128_0_3653 : ∀ a, (![0, 3653] : Fin 2 → Nat) a + S512x128.size a ≤ S512x3781.size a
  slices_S512x3328_o0_0_S512x128 : S512x3328.Slices ![0, 0] S512x128
  slices_S512x3328_o0_128_S512x3200 : S512x3328.Slices ![0, 128] S512x3200
  concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x3200_d1 : Shape.Concatenates [S512x128, S512x128, S512x128, S512x128, S512x128, S512x128, S512x128, S512x128, S512x128, S512x128, S512x128, S512x128, S512x128, S512x128, S512x128, S512x128, S512x128, S512x128, S512x128, S512x128, S512x128, S512x128, S512x128, S512x128, S512x128] S512x3200 1
  shapeCasts_S512x3200_S512x25x128 : S512x3200.ShapeCasts S512x25x128
  reduces_S512x25x128_S512x25 : S512x25x128.Reduces [2] S512x25
  inb_S512x3781_S512x25_0_3328 : ∀ a, (![0, 3328] : Fin 2 → Nat) a + S512x25.size a ≤ S512x3781.size a
  h_S512x25 : 0 < S512x25.numel
  slices_S512x3328_o0_128_S512x128 : S512x3328.Slices ![0, 128] S512x128
  slices_S512x3328_o0_256_S512x3072 : S512x3328.Slices ![0, 256] S512x3072
  concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x3072_d1 : Shape.Concatenates [S512x128, S512x128, S512x128, S512x128, S512x128, S512x128, S512x128, S512x128, S512x128, S512x128, S512x128, S512x128, S512x128, S512x128, S512x128, S512x128, S512x128, S512x128, S512x128, S512x128, S512x128, S512x128, S512x128, S512x128] S512x3072 1
  shapeCasts_S512x3072_S512x24x128 : S512x3072.ShapeCasts S512x24x128
  reduces_S512x24x128_S512x24 : S512x24x128.Reduces [2] S512x24
  inb_S512x3781_S512x24_0_3353 : ∀ a, (![0, 3353] : Fin 2 → Nat) a + S512x24.size a ≤ S512x3781.size a
  h_S512x24 : 0 < S512x24.numel
  slices_S512x3328_o0_256_S512x128 : S512x3328.Slices ![0, 256] S512x128
  slices_S512x3328_o0_384_S512x2944 : S512x3328.Slices ![0, 384] S512x2944
  concatenates_S512x128_S512x128_S512x128_S512x128_S512x128_S512x128_S512x128_S512x128_S512x128_S512x128_S512x128_S512x128_S512x128_S512x128_S512x128_S512x128_S512x128_S512x128_S512x128_S512x128_S512x128_S512x128_S512x128_S512x2944_d1 : Shape.Concatenates [S512x128, S512x128, S512x128, S512x128, S512x128, S512x128, S512x128, S512x128, S512x128, S512x128, S512x128, S512x128, S512x128, S512x128, S512x128, S512x128, S512x128, S512x128, S512x128, S512x128, S512x128, S512x128, S512x128] S512x2944 1
  shapeCasts_S512x2944_S512x23x128 : S512x2944.ShapeCasts S512x23x128
  reduces_S512x23x128_S512x23 : S512x23x128.Reduces [2] S512x23
  inb_S512x3781_S512x23_0_3377 : ∀ a, (![0, 3377] : Fin 2 → Nat) a + S512x23.size a ≤ S512x3781.size a
  h_S512x23 : 0 < S512x23.numel
  slices_S512x3328_o0_384_S512x128 : S512x3328.Slices ![0, 384] S512x128
  slices_S512x3328_o0_512_S512x2816 : S512x3328.Slices ![0, 512] S512x2816
  concatenates_S512x128_S512x128_S512x128_S512x128_S512x128_S512x128_S512x128_S512x128_S512x128_S512x128_S512x128_S512x128_S512x128_S512x128_S512x128_S512x128_S512x128_S512x128_S512x128_S512x128_S512x128_S512x128_S512x2816_d1 : Shape.Concatenates [S512x128, S512x128, S512x128, S512x128, S512x128, S512x128, S512x128, S512x128, S512x128, S512x128, S512x128, S512x128, S512x128, S512x128, S512x128, S512x128, S512x128, S512x128, S512x128, S512x128, S512x128, S512x128] S512x2816 1
  shapeCasts_S512x2816_S512x22x128 : S512x2816.ShapeCasts S512x22x128
  reduces_S512x22x128_S512x22 : S512x22x128.Reduces [2] S512x22
  inb_S512x3781_S512x22_0_3400 : ∀ a, (![0, 3400] : Fin 2 → Nat) a + S512x22.size a ≤ S512x3781.size a
  h_S512x22 : 0 < S512x22.numel
  slices_S512x3328_o0_512_S512x128 : S512x3328.Slices ![0, 512] S512x128
  slices_S512x3328_o0_640_S512x2688 : S512x3328.Slices ![0, 640] S512x2688
  concatenates_S512x128_S512x128_S512x128_S512x128_S512x128_S512x128_S512x128_S512x128_S512x128_S512x128_S512x128_S512x128_S512x128_S512x128_S512x128_S512x128_S512x128_S512x128_S512x128_S512x128_S512x128_S512x2688_d1 : Shape.Concatenates [S512x128, S512x128, S512x128, S512x128, S512x128, S512x128, S512x128, S512x128, S512x128, S512x128, S512x128, S512x128, S512x128, S512x128, S512x128, S512x128, S512x128, S512x128, S512x128, S512x128, S512x128] S512x2688 1
  shapeCasts_S512x2688_S512x21x128 : S512x2688.ShapeCasts S512x21x128
  reduces_S512x21x128_S512x21 : S512x21x128.Reduces [2] S512x21
  inb_S512x3781_S512x21_0_3422 : ∀ a, (![0, 3422] : Fin 2 → Nat) a + S512x21.size a ≤ S512x3781.size a
  h_S512x21 : 0 < S512x21.numel
  slices_S512x3328_o0_640_S512x128 : S512x3328.Slices ![0, 640] S512x128
  slices_S512x3328_o0_768_S512x2560 : S512x3328.Slices ![0, 768] S512x2560
  concatenates_S512x128_S512x128_S512x128_S512x128_S512x128_S512x128_S512x128_S512x128_S512x128_S512x128_S512x128_S512x128_S512x128_S512x128_S512x128_S512x128_S512x128_S512x128_S512x128_S512x128_S512x2560_d1 : Shape.Concatenates [S512x128, S512x128, S512x128, S512x128, S512x128, S512x128, S512x128, S512x128, S512x128, S512x128, S512x128, S512x128, S512x128, S512x128, S512x128, S512x128, S512x128, S512x128, S512x128, S512x128] S512x2560 1
  shapeCasts_S512x2560_S512x20x128 : S512x2560.ShapeCasts S512x20x128
  reduces_S512x20x128_S512x20 : S512x20x128.Reduces [2] S512x20
  inb_S512x3781_S512x20_0_3443 : ∀ a, (![0, 3443] : Fin 2 → Nat) a + S512x20.size a ≤ S512x3781.size a
  h_S512x20 : 0 < S512x20.numel
  slices_S512x3328_o0_768_S512x128 : S512x3328.Slices ![0, 768] S512x128
  slices_S512x3328_o0_896_S512x2432 : S512x3328.Slices ![0, 896] S512x2432
  concatenates_S512x128_S512x128_S512x128_S512x128_S512x128_S512x128_S512x128_S512x128_S512x128_S512x128_S512x128_S512x128_S512x128_S512x128_S512x128_S512x128_S512x128_S512x128_S512x128_S512x2432_d1 : Shape.Concatenates [S512x128, S512x128, S512x128, S512x128, S512x128, S512x128, S512x128, S512x128, S512x128, S512x128, S512x128, S512x128, S512x128, S512x128, S512x128, S512x128, S512x128, S512x128, S512x128] S512x2432 1
  shapeCasts_S512x2432_S512x19x128 : S512x2432.ShapeCasts S512x19x128
  reduces_S512x19x128_S512x19 : S512x19x128.Reduces [2] S512x19
  inb_S512x3781_S512x19_0_3463 : ∀ a, (![0, 3463] : Fin 2 → Nat) a + S512x19.size a ≤ S512x3781.size a
  h_S512x19 : 0 < S512x19.numel
  slices_S512x3328_o0_896_S512x128 : S512x3328.Slices ![0, 896] S512x128
  slices_S512x3328_o0_1024_S512x2304 : S512x3328.Slices ![0, 1024] S512x2304
  concatenates_S512x128_S512x128_S512x128_S512x128_S512x128_S512x128_S512x128_S512x128_S512x128_S512x128_S512x128_S512x128_S512x128_S512x128_S512x128_S512x128_S512x128_S512x128_S512x2304_d1 : Shape.Concatenates [S512x128, S512x128, S512x128, S512x128, S512x128, S512x128, S512x128, S512x128, S512x128, S512x128, S512x128, S512x128, S512x128, S512x128, S512x128, S512x128, S512x128, S512x128] S512x2304 1
  shapeCasts_S512x2304_S512x18x128 : S512x2304.ShapeCasts S512x18x128
  reduces_S512x18x128_S512x18 : S512x18x128.Reduces [2] S512x18
  inb_S512x3781_S512x18_0_3482 : ∀ a, (![0, 3482] : Fin 2 → Nat) a + S512x18.size a ≤ S512x3781.size a
  h_S512x18 : 0 < S512x18.numel
  slices_S512x3328_o0_1024_S512x128 : S512x3328.Slices ![0, 1024] S512x128
  slices_S512x3328_o0_1152_S512x2176 : S512x3328.Slices ![0, 1152] S512x2176
  concatenates_S512x128_S512x128_S512x128_S512x128_S512x128_S512x128_S512x128_S512x128_S512x128_S512x128_S512x128_S512x128_S512x128_S512x128_S512x128_S512x128_S512x128_S512x2176_d1 : Shape.Concatenates [S512x128, S512x128, S512x128, S512x128, S512x128, S512x128, S512x128, S512x128, S512x128, S512x128, S512x128, S512x128, S512x128, S512x128, S512x128, S512x128, S512x128] S512x2176 1
  shapeCasts_S512x2176_S512x17x128 : S512x2176.ShapeCasts S512x17x128
  reduces_S512x17x128_S512x17 : S512x17x128.Reduces [2] S512x17
  inb_S512x3781_S512x17_0_3500 : ∀ a, (![0, 3500] : Fin 2 → Nat) a + S512x17.size a ≤ S512x3781.size a
  h_S512x17 : 0 < S512x17.numel
  slices_S512x3328_o0_1152_S512x128 : S512x3328.Slices ![0, 1152] S512x128
  slices_S512x3328_o0_1280_S512x2048 : S512x3328.Slices ![0, 1280] S512x2048
  concatenates_S512x128_S512x128_S512x128_S512x128_S512x128_S512x128_S512x128_S512x128_S512x128_S512x128_S512x128_S512x128_S512x128_S512x128_S512x128_S512x128_S512x2048_d1 : Shape.Concatenates [S512x128, S512x128, S512x128, S512x128, S512x128, S512x128, S512x128, S512x128, S512x128, S512x128, S512x128, S512x128, S512x128, S512x128, S512x128, S512x128] S512x2048 1
  shapeCasts_S512x2048_S512x16x128 : S512x2048.ShapeCasts S512x16x128
  reduces_S512x16x128_S512x16 : S512x16x128.Reduces [2] S512x16
  inb_S512x3781_S512x16_0_3517 : ∀ a, (![0, 3517] : Fin 2 → Nat) a + S512x16.size a ≤ S512x3781.size a
  h_S512x16 : 0 < S512x16.numel
  slices_S512x3328_o0_1280_S512x128 : S512x3328.Slices ![0, 1280] S512x128
  slices_S512x3328_o0_1408_S512x1920 : S512x3328.Slices ![0, 1408] S512x1920
  concatenates_S512x128_S512x128_S512x128_S512x128_S512x128_S512x128_S512x128_S512x128_S512x128_S512x128_S512x128_S512x128_S512x128_S512x128_S512x128_S512x1920_d1 : Shape.Concatenates [S512x128, S512x128, S512x128, S512x128, S512x128, S512x128, S512x128, S512x128, S512x128, S512x128, S512x128, S512x128, S512x128, S512x128, S512x128] S512x1920 1
  shapeCasts_S512x1920_S512x15x128 : S512x1920.ShapeCasts S512x15x128
  reduces_S512x15x128_S512x15 : S512x15x128.Reduces [2] S512x15
  inb_S512x3781_S512x15_0_3533 : ∀ a, (![0, 3533] : Fin 2 → Nat) a + S512x15.size a ≤ S512x3781.size a
  h_S512x15 : 0 < S512x15.numel
  slices_S512x3328_o0_1408_S512x128 : S512x3328.Slices ![0, 1408] S512x128
  slices_S512x3328_o0_1536_S512x1792 : S512x3328.Slices ![0, 1536] S512x1792
  concatenates_S512x128_S512x128_S512x128_S512x128_S512x128_S512x128_S512x128_S512x128_S512x128_S512x128_S512x128_S512x128_S512x128_S512x128_S512x1792_d1 : Shape.Concatenates [S512x128, S512x128, S512x128, S512x128, S512x128, S512x128, S512x128, S512x128, S512x128, S512x128, S512x128, S512x128, S512x128, S512x128] S512x1792 1
  shapeCasts_S512x1792_S512x14x128 : S512x1792.ShapeCasts S512x14x128
  reduces_S512x14x128_S512x14 : S512x14x128.Reduces [2] S512x14
  inb_S512x3781_S512x14_0_3548 : ∀ a, (![0, 3548] : Fin 2 → Nat) a + S512x14.size a ≤ S512x3781.size a
  h_S512x14 : 0 < S512x14.numel
  slices_S512x3328_o0_1536_S512x128 : S512x3328.Slices ![0, 1536] S512x128
  slices_S512x3328_o0_1664_S512x1664 : S512x3328.Slices ![0, 1664] S512x1664
  concatenates_S512x128_S512x128_S512x128_S512x128_S512x128_S512x128_S512x128_S512x128_S512x128_S512x128_S512x128_S512x128_S512x128_S512x1664_d1 : Shape.Concatenates [S512x128, S512x128, S512x128, S512x128, S512x128, S512x128, S512x128, S512x128, S512x128, S512x128, S512x128, S512x128, S512x128] S512x1664 1
  shapeCasts_S512x1664_S512x13x128 : S512x1664.ShapeCasts S512x13x128
  reduces_S512x13x128_S512x13 : S512x13x128.Reduces [2] S512x13
  inb_S512x3781_S512x13_0_3562 : ∀ a, (![0, 3562] : Fin 2 → Nat) a + S512x13.size a ≤ S512x3781.size a
  h_S512x13 : 0 < S512x13.numel
  slices_S512x3328_o0_1664_S512x128 : S512x3328.Slices ![0, 1664] S512x128
  slices_S512x3328_o0_1792_S512x1536 : S512x3328.Slices ![0, 1792] S512x1536
  concatenates_S512x128_S512x128_S512x128_S512x128_S512x128_S512x128_S512x128_S512x128_S512x128_S512x128_S512x128_S512x128_S512x1536_d1 : Shape.Concatenates [S512x128, S512x128, S512x128, S512x128, S512x128, S512x128, S512x128, S512x128, S512x128, S512x128, S512x128, S512x128] S512x1536 1
  shapeCasts_S512x1536_S512x12x128 : S512x1536.ShapeCasts S512x12x128
  reduces_S512x12x128_S512x12 : S512x12x128.Reduces [2] S512x12
  inb_S512x3781_S512x12_0_3575 : ∀ a, (![0, 3575] : Fin 2 → Nat) a + S512x12.size a ≤ S512x3781.size a
  h_S512x12 : 0 < S512x12.numel
  slices_S512x3328_o0_1792_S512x128 : S512x3328.Slices ![0, 1792] S512x128
  slices_S512x3328_o0_1920_S512x1408 : S512x3328.Slices ![0, 1920] S512x1408
  concatenates_S512x128_S512x128_S512x128_S512x128_S512x128_S512x128_S512x128_S512x128_S512x128_S512x128_S512x128_S512x1408_d1 : Shape.Concatenates [S512x128, S512x128, S512x128, S512x128, S512x128, S512x128, S512x128, S512x128, S512x128, S512x128, S512x128] S512x1408 1
  shapeCasts_S512x1408_S512x11x128 : S512x1408.ShapeCasts S512x11x128
  reduces_S512x11x128_S512x11 : S512x11x128.Reduces [2] S512x11
  inb_S512x3781_S512x11_0_3587 : ∀ a, (![0, 3587] : Fin 2 → Nat) a + S512x11.size a ≤ S512x3781.size a
  h_S512x11 : 0 < S512x11.numel
  slices_S512x3328_o0_1920_S512x128 : S512x3328.Slices ![0, 1920] S512x128
  slices_S512x3328_o0_2048_S512x1280 : S512x3328.Slices ![0, 2048] S512x1280
  concatenates_S512x128_S512x128_S512x128_S512x128_S512x128_S512x128_S512x128_S512x128_S512x128_S512x128_S512x1280_d1 : Shape.Concatenates [S512x128, S512x128, S512x128, S512x128, S512x128, S512x128, S512x128, S512x128, S512x128, S512x128] S512x1280 1
  shapeCasts_S512x1280_S512x10x128 : S512x1280.ShapeCasts S512x10x128
  reduces_S512x10x128_S512x10 : S512x10x128.Reduces [2] S512x10
  inb_S512x3781_S512x10_0_3598 : ∀ a, (![0, 3598] : Fin 2 → Nat) a + S512x10.size a ≤ S512x3781.size a
  h_S512x10 : 0 < S512x10.numel
  slices_S512x3328_o0_2048_S512x128 : S512x3328.Slices ![0, 2048] S512x128
  slices_S512x3328_o0_2176_S512x1152 : S512x3328.Slices ![0, 2176] S512x1152
  concatenates_S512x128_S512x128_S512x128_S512x128_S512x128_S512x128_S512x128_S512x128_S512x128_S512x1152_d1 : Shape.Concatenates [S512x128, S512x128, S512x128, S512x128, S512x128, S512x128, S512x128, S512x128, S512x128] S512x1152 1
  shapeCasts_S512x1152_S512x9x128 : S512x1152.ShapeCasts S512x9x128
  reduces_S512x9x128_S512x9 : S512x9x128.Reduces [2] S512x9
  inb_S512x3781_S512x9_0_3608 : ∀ a, (![0, 3608] : Fin 2 → Nat) a + S512x9.size a ≤ S512x3781.size a
  h_S512x9 : 0 < S512x9.numel
  slices_S512x3328_o0_2176_S512x128 : S512x3328.Slices ![0, 2176] S512x128
  slices_S512x3328_o0_2304_S512x1024 : S512x3328.Slices ![0, 2304] S512x1024
  concatenates_S512x128_S512x128_S512x128_S512x128_S512x128_S512x128_S512x128_S512x128_S512x1024_d1 : Shape.Concatenates [S512x128, S512x128, S512x128, S512x128, S512x128, S512x128, S512x128, S512x128] S512x1024 1
  shapeCasts_S512x1024_S512x8x128 : S512x1024.ShapeCasts S512x8x128
  reduces_S512x8x128_S512x8 : S512x8x128.Reduces [2] S512x8
  inb_S512x3781_S512x8_0_3617 : ∀ a, (![0, 3617] : Fin 2 → Nat) a + S512x8.size a ≤ S512x3781.size a
  h_S512x8 : 0 < S512x8.numel
  slices_S512x3328_o0_2304_S512x128 : S512x3328.Slices ![0, 2304] S512x128
  slices_S512x3328_o0_2432_S512x896 : S512x3328.Slices ![0, 2432] S512x896
  concatenates_S512x128_S512x128_S512x128_S512x128_S512x128_S512x128_S512x128_S512x896_d1 : Shape.Concatenates [S512x128, S512x128, S512x128, S512x128, S512x128, S512x128, S512x128] S512x896 1
  shapeCasts_S512x896_S512x7x128 : S512x896.ShapeCasts S512x7x128
  reduces_S512x7x128_S512x7 : S512x7x128.Reduces [2] S512x7
  inb_S512x3781_S512x7_0_3625 : ∀ a, (![0, 3625] : Fin 2 → Nat) a + S512x7.size a ≤ S512x3781.size a
  h_S512x7 : 0 < S512x7.numel
  slices_S512x3328_o0_2432_S512x128 : S512x3328.Slices ![0, 2432] S512x128
  slices_S512x3328_o0_2560_S512x768 : S512x3328.Slices ![0, 2560] S512x768
  concatenates_S512x128_S512x128_S512x128_S512x128_S512x128_S512x128_S512x768_d1 : Shape.Concatenates [S512x128, S512x128, S512x128, S512x128, S512x128, S512x128] S512x768 1
  shapeCasts_S512x768_S512x6x128 : S512x768.ShapeCasts S512x6x128
  reduces_S512x6x128_S512x6 : S512x6x128.Reduces [2] S512x6
  inb_S512x3781_S512x6_0_3632 : ∀ a, (![0, 3632] : Fin 2 → Nat) a + S512x6.size a ≤ S512x3781.size a
  h_S512x6 : 0 < S512x6.numel
  slices_S512x3328_o0_2560_S512x128 : S512x3328.Slices ![0, 2560] S512x128
  slices_S512x3328_o0_2688_S512x640 : S512x3328.Slices ![0, 2688] S512x640
  concatenates_S512x128_S512x128_S512x128_S512x128_S512x128_S512x640_d1 : Shape.Concatenates [S512x128, S512x128, S512x128, S512x128, S512x128] S512x640 1
  shapeCasts_S512x640_S512x5x128 : S512x640.ShapeCasts S512x5x128
  reduces_S512x5x128_S512x5 : S512x5x128.Reduces [2] S512x5
  inb_S512x3781_S512x5_0_3638 : ∀ a, (![0, 3638] : Fin 2 → Nat) a + S512x5.size a ≤ S512x3781.size a
  h_S512x5 : 0 < S512x5.numel
  slices_S512x3328_o0_2688_S512x128 : S512x3328.Slices ![0, 2688] S512x128
  slices_S512x3328_o0_2816_S512x512 : S512x3328.Slices ![0, 2816] S512x512
  concatenates_S512x128_S512x128_S512x128_S512x128_S512x512_d1 : Shape.Concatenates [S512x128, S512x128, S512x128, S512x128] S512x512 1
  shapeCasts_S512x512_S512x4x128 : S512x512.ShapeCasts S512x4x128
  reduces_S512x4x128_S512x4 : S512x4x128.Reduces [2] S512x4
  inb_S512x3781_S512x4_0_3643 : ∀ a, (![0, 3643] : Fin 2 → Nat) a + S512x4.size a ≤ S512x3781.size a
  h_S512x4 : 0 < S512x4.numel
  slices_S512x3328_o0_2816_S512x128 : S512x3328.Slices ![0, 2816] S512x128
  slices_S512x3328_o0_2944_S512x384 : S512x3328.Slices ![0, 2944] S512x384
  concatenates_S512x128_S512x128_S512x128_S512x384_d1 : Shape.Concatenates [S512x128, S512x128, S512x128] S512x384 1
  shapeCasts_S512x384_S512x3x128 : S512x384.ShapeCasts S512x3x128
  reduces_S512x3x128_S512x3 : S512x3x128.Reduces [2] S512x3
  inb_S512x3781_S512x3_0_3647 : ∀ a, (![0, 3647] : Fin 2 → Nat) a + S512x3.size a ≤ S512x3781.size a
  h_S512x3 : 0 < S512x3.numel
  slices_S512x3328_o0_2944_S512x128 : S512x3328.Slices ![0, 2944] S512x128
  slices_S512x3328_o0_3072_S512x256 : S512x3328.Slices ![0, 3072] S512x256
  concatenates_S512x128_S512x128_S512x256_d1 : Shape.Concatenates [S512x128, S512x128] S512x256 1
  shapeCasts_S512x256_S512x2x128 : S512x256.ShapeCasts S512x2x128
  reduces_S512x2x128_S512x2 : S512x2x128.Reduces [2] S512x2
  inb_S512x3781_S512x2_0_3650 : ∀ a, (![0, 3650] : Fin 2 → Nat) a + S512x2.size a ≤ S512x3781.size a
  h_S512x2 : 0 < S512x2.numel
  slices_S512x3328_o0_3072_S512x128 : S512x3328.Slices ![0, 3072] S512x128
  slices_S512x3328_o0_3200_S512x128 : S512x3328.Slices ![0, 3200] S512x128
  shapeCasts_S512x128_S512x1x128 : S512x128.ShapeCasts S512x1x128
  reduces_S512x1x128_S512x1 : S512x1x128.Reduces [2] S512x1
  inb_S512x3781_S512x1_0_3652 : ∀ a, (![0, 3652] : Fin 2 → Nat) a + S512x1.size a ≤ S512x3781.size a
  h_S512x1 : 0 < S512x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3328.size a ≤ S16384x3328.size a
  hwx0_0 : ∀ i : grid0.Coords, EltTy.bits .f32 = 32 ∨ (Rect.block (s := S16384x3328) S512x3328.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S16384x128.size a
  hwx0_1 : ∀ i : grid0.Coords, EltTy.bits .f32 = 32 ∨ (Rect.block (s := S16384x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3781.size a ≤ S16384x3781.size a
  hwx0_2 : ∀ i : grid0.Coords, EltTy.bits .f32 = 32 ∨ (Rect.block (s := S16384x3781) S512x3781.size (cc0_transform_2 i) (hinb0_2 i)).WholeWords (EltTy.packing .f32)

variable [Facts₀]

abbrev win0_0 : Pipeline.Window sig grid0 :=
  Pipeline.Window.ofSpec (Memref.whole main_arg0) S512x3328.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x3781.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x3328 : Shape := ⟨2, ![16384, 3328]⟩
abbrev S16384x128 : Shape := ⟨2, ![16384, 128]⟩
abbrev S325 : Shape := ⟨1, ![325]⟩
abbrev S16384x26x128 : Shape := ⟨3, ![16384, 26, 128]⟩
abbrev S16384x26x26 : Shape := ⟨3, ![16384, 26, 26]⟩
abbrev S_ : Shape := ⟨0, ![]⟩
abbrev S325x1 : Shape := ⟨2, ![325, 1]⟩
abbrev S325x2 : Shape := ⟨2, ![325, 2]⟩
abbrev S16384x325 : Shape := ⟨2, ![16384, 325]⟩
abbrev S16384x3781 : Shape := ⟨2, ![16384, 3781]⟩

abbrev nBuf : Space → Nat
  | .hbm => 21
  | .vmem => 0
  | .smem => 0
  | _ => 0

abbrev bufTy : (tb : Table) → Fin (tcTables nBuf tb) → BufTy
  | .hbm, ⟨0, _⟩ => ⟨S16384x3328, .f32⟩
  | .hbm, ⟨1, _⟩ => ⟨S16384x128, .f32⟩
  | .hbm, ⟨2, _⟩ => ⟨S325, .i32⟩
  | .hbm, ⟨3, _⟩ => ⟨S325, .i1⟩
  | .hbm, ⟨4, _⟩ => ⟨S325, .i32⟩
  | .hbm, ⟨5, _⟩ => ⟨S325, .i1⟩
  | .hbm, ⟨6, _⟩ => ⟨S16384x26x128, .f32⟩
  | .hbm, ⟨7, _⟩ => ⟨S16384x26x26, .f32⟩
  | .hbm, ⟨8, _⟩ => ⟨S_, .i32⟩
  | .hbm, ⟨9, _⟩ => ⟨S325, .i32⟩
  | .hbm, ⟨10, _⟩ => ⟨S325, .i32⟩
  | .hbm, ⟨11, _⟩ => ⟨S325, .i32⟩
  | .hbm, ⟨12, _⟩ => ⟨S_, .i32⟩
  | .hbm, ⟨13, _⟩ => ⟨S325, .i32⟩
  | .hbm, ⟨14, _⟩ => ⟨S325, .i32⟩
  | .hbm, ⟨15, _⟩ => ⟨S325, .i32⟩
  | .hbm, ⟨16, _⟩ => ⟨S325x1, .i32⟩
  | .hbm, ⟨17, _⟩ => ⟨S325x1, .i32⟩
  | .hbm, ⟨18, _⟩ => ⟨S325x2, .i32⟩
  | .hbm, ⟨19, _⟩ => ⟨S16384x325, .f32⟩
  | .hbm, ⟨20, _⟩ => ⟨S16384x3781, .f32⟩
  | _, _ => ⟨S16384x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_c_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  shapeCasts_S16384x3328_S16384x26x128 : S16384x3328.ShapeCasts S16384x26x128
  bcast_S_S325 : S_.BroadcastsInDim S325 (![] : Fin 0 → Fin S325.rank)
  bcast_S325_S325x1_0 : S325.BroadcastsInDim S325x1 (![0] : Fin 1 → Fin S325x1.rank)
  concatenates_S325x1_S325x1_S325x2_d1 : Shape.Concatenates [S325x1, S325x1] S325x2 1
  concatenates_S16384x3328_S16384x325_S16384x128_S16384x3781_d1 : Shape.Concatenates [S16384x3328, S16384x325, S16384x128] S16384x3781 1
  dot_S16384x26x128_S16384x26x128_S16384x26x26_2_2_1_1_0_0_wf : DotDims.WF S16384x26x128 S16384x26x128 S16384x26x26 [2] [2] [1] [1] [0] [0]
  gather_S16384x26x26_S325x2_S16384x325_0_12_n_n_12_1_1638411_wf : GatherDims.WF S16384x26x26 S325x2 S16384x325 [0] [1, 2] [] [1, 2] [] 1 ![16384, 1, 1]

variable [Facts₀]

def dot_S16384x26x128_S16384x26x128_S16384x26x26_2_2_1_1_0_0 : DotDims S16384x26x128 S16384x26x128 S16384x26x26 where
  lhsContracting := [2]
  rhsContracting := [2]
  lhsNonContracting := [1]
  rhsNonContracting := [1]
  lhsBatch := [0]
  rhsBatch := [0]
  wf := dot_S16384x26x128_S16384x26x128_S16384x26x26_2_2_1_1_0_0_wf
def gather_S16384x26x26_S325x2_S16384x325_0_12_n_n_12_1_1638411 : GatherDims S16384x26x26 S325x2 S16384x325 where
  offsetDims := [0]
  collapsedSliceDims := [1, 2]
  operandBatchingDims := []
  startIndicesBatchingDims := []
  startIndexMap := [1, 2]
  indexVectorDim := 1
  sliceSizes := ![16384, 1, 1]
  wf := gather_S16384x26x26_S325x2_S16384x325_0_12_n_n_12_1_1638411_wf

class Facts : Prop extends Facts₀ where

variable [Facts]
-- ==== Proof.BlockCoverBits.lean ====
/-
  The pieces the kernel's body stores into its output block cover the block.

  Every piece is all 512 rows of a range of columns: the sparse columns 0 … 3327, the dense columns 3653 … 3780, and for
  each row `f` of the triangle its `25 − f` pair columns. The 27 column ranges are consecutive and end at 3781, so a
  column of the block lies in exactly one of them: the piece is found from the column alone.
-/
import proofs.«141904_j12283606468241_2_alg».proof.Proof.Gen.Kernel.Frame.RunA

set_option maxRecDepth 16384

noncomputable section

namespace Cert.Kernel.Block

open Cert.Kernel Cert.Kernel.Gen Idealize.ShloMosaic Idealize.ShloMosaic.TcCoe Idealize.SL.Sem

variable {F : FTy → Type} [FloatOps F]

/-- An index whose column is in `off … off + w − 1` is in the piece of all rows of those columns. -/
theorem mem_columns (off w : ℕ)
    (inb : ∀ a, (![0, off] : Fin 2 → ℕ) a + (![512, w] : Fin 2 → ℕ) a ≤ S512x3781.size a)
    (y : S512x3781.Idx) (h : off ≤ (y 1).val ∧ (y 1).val < off + w) :
    y ∈ (Rect.unit (s := S512x3781) ![0, off] ![512, w] inb).set :=
  Rect.mem_set_unit.mpr fun a => by
    have h0 : (y 0).val < 512 := (y 0).isLt
    match a with
    | ⟨0, _⟩ => exact ⟨Nat.zero_le _, by show (y 0).val < 0 + 512; omega⟩
    | ⟨1, _⟩ => exact h

/-- The `k`-th stored piece (last store first) is all rows of columns `o … o + w − 1`, and the index's column is there. -/
local macro "piece " k:num " columns " o:num " width " w:num : tactic =>
  `(tactic| (refine ⟨_, List.getElem_mem (show $k < _ by simp), ?_⟩
             exact mem_columns $o $w (by decide) _ ⟨by omega, by omega⟩))

/-- Every index of the output block is in some stored piece. -/
theorem cover (c : Dev nD) (i : grid0.Coords) (arg1 : Memref sig .tc .vmem S512x3328 .f32) (harg1 : arg1.IsWhole)
    (arg2 : Memref sig .tc .vmem S512x128 .f32) (harg2 : arg2.IsWhole) (arg3 : Memref sig .tc .vmem S512x3781 .f32)
    (harg3 : arg3.IsWhole) (x0 : Vec F S512x3328 .f32) (x1 : Vec F S512x128 .f32) (y : S512x3781.Idx) :
    ∃ pc ∈ (kernelRun0_A c i arg1 harg1 arg2 harg2 arg3 harg3 x0 x1).1, y ∈ pc.1.set := by
  have hy : (y 1).val < 3781 := (y 1).isLt
  unfold kernelRun0_A
  dsimp only
  have hcol : (y 1).val < 3328 ∨ (3328 ≤ (y 1).val ∧ (y 1).val < 3353) ∨ (3353 ≤ (y 1).val ∧ (y 1).val < 3377)
      ∨ (3377 ≤ (y 1).val ∧ (y 1).val < 3400) ∨ (3400 ≤ (y 1).val ∧ (y 1).val < 3422)
      ∨ (3422 ≤ (y 1).val ∧ (y 1).val < 3443) ∨ (3443 ≤ (y 1).val ∧ (y 1).val < 3463)
      ∨ (3463 ≤ (y 1).val ∧ (y 1).val < 3482) ∨ (3482 ≤ (y 1).val ∧ (y 1).val < 3500)
      ∨ (3500 ≤ (y 1).val ∧ (y 1).val < 3517) ∨ (3517 ≤ (y 1).val ∧ (y 1).val < 3533)
      ∨ (3533 ≤ (y 1).val ∧ (y 1).val < 3548) ∨ (3548 ≤ (y 1).val ∧ (y 1).val < 3562)
      ∨ (3562 ≤ (y 1).val ∧ (y 1).val < 3575) ∨ (3575 ≤ (y 1).val ∧ (y 1).val < 3587)
      ∨ (3587 ≤ (y 1).val ∧ (y 1).val < 3598) ∨ (3598 ≤ (y 1).val ∧ (y 1).val < 3608)
      ∨ (3608 ≤ (y 1).val ∧ (y 1).val < 3617) ∨ (3617 ≤ (y 1).val ∧ (y 1).val < 3625)
      ∨ (3625 ≤ (y 1).val ∧ (y 1).val < 3632) ∨ (3632 ≤ (y 1).val ∧ (y 1).val < 3638)
      ∨ (3638 ≤ (y 1).val ∧ (y 1).val < 3643) ∨ (3643 ≤ (y 1).val ∧ (y 1).val < 3647)
      ∨ (3647 ≤ (y 1).val ∧ (y 1).val < 3650) ∨ (3650 ≤ (y 1).val ∧ (y 1).val < 3652)
      ∨ (3652 ≤ (y 1).val ∧ (y 1).val < 3653) ∨ 3653 ≤ (y 1).val := by omega
  rcases hcol with h | h | h | h | h | h | h | h | h | h | h | h | h | h | h | h | h | h | h | h | h | h | h | h | h | h | h
  · piece 26 columns 0 width 3328
  · piece 24 columns 3328 width 25
  · piece 23 columns 3353 width 24
  · piece 22 columns 3377 width 23
  · piece 21 columns 3400 width 22
  · piece 20 columns 3422 width 21
  · piece 19 columns 3443 width 20
  · piece 18 columns 3463 width 19
  · piece 17 columns 3482 width 18
  · piece 16 columns 3500 width 17
  · piece 15 columns 3517 width 16
  · piece 14 columns 3533 width 15
  · piece 13 columns 3548 width 14
  · piece 12 columns 3562 width 13
  · piece 11 columns 3575 width 12
  · piece 10 columns 3587 width 11
  · piece 9 columns 3598 width 10
  · piece 8 columns 3608 width 9
  · piece 7 columns 3617 width 8
  · piece 6 columns 3625 width 7
  · piece 5 columns 3632 width 6
  · piece 4 columns 3638 width 5
  · piece 3 columns 3643 width 4
  · piece 2 columns 3647 width 3
  · piece 1 columns 3650 width 2
  · piece 0 columns 3652 width 1
  · piece 25 columns 3653 width 128

end Cert.Kernel.Block

end
-- ==== Proof.BlockCover.lean ====
/-
  The pieces the kernel's body stores into its output block cover the block.

  Every piece is all 512 rows of a range of columns: the sparse columns 0 … 3327, the dense columns 3653 … 3780, and for
  each row `f` of the triangle its `25 − f` pair columns. The 27 column ranges are consecutive and end at 3781, so a
  column of the block lies in exactly one of them: the piece is found from the column alone.
-/
import proofs.«141904_j12283606468241_2_alg».proof.Proof.Gen.KernelIdeal.Frame.RunA

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]

/-- An index whose column is in `off … off + w − 1` is in the piece of all rows of those columns. -/
theorem mem_columns (off w : ℕ)
    (inb : ∀ a, (![0, off] : Fin 2 → ℕ) a + (![512, w] : Fin 2 → ℕ) a ≤ S512x3781.size a)
    (y : S512x3781.Idx) (h : off ≤ (y 1).val ∧ (y 1).val < off + w) :
    y ∈ (Rect.unit (s := S512x3781) ![0, off] ![512, w] inb).set :=
  Rect.mem_set_unit.mpr fun a => by
    have h0 : (y 0).val < 512 := (y 0).isLt
    match a with
    | ⟨0, _⟩ => exact ⟨Nat.zero_le _, by show (y 0).val < 0 + 512; omega⟩
    | ⟨1, _⟩ => exact h

/-- The `k`-th stored piece (last store first) is all rows of columns `o … o + w − 1`, and the index's column is there. -/
local macro "piece " k:num " columns " o:num " width " w:num : tactic =>
  `(tactic| (refine ⟨_, List.getElem_mem (show $k < _ by simp), ?_⟩
             exact mem_columns $o $w (by decide) _ ⟨by omega, by omega⟩))

/-- Every index of the output block is in some stored piece. -/
theorem cover (c : Dev nD) (i : grid0.Coords) (arg1 : Memref sig .tc .vmem S512x3328 .f32) (harg1 : arg1.IsWhole)
    (arg2 : Memref sig .tc .vmem S512x128 .f32) (harg2 : arg2.IsWhole) (arg3 : Memref sig .tc .vmem S512x3781 .f32)
    (harg3 : arg3.IsWhole) (x0 : Vec F S512x3328 .f32) (x1 : Vec F S512x128 .f32) (y : S512x3781.Idx) :
    ∃ pc ∈ (kernelRun0_A c i arg1 harg1 arg2 harg2 arg3 harg3 x0 x1).1, y ∈ pc.1.set := by
  have hy : (y 1).val < 3781 := (y 1).isLt
  unfold kernelRun0_A
  dsimp only
  have hcol : (y 1).val < 3328 ∨ (3328 ≤ (y 1).val ∧ (y 1).val < 3353) ∨ (3353 ≤ (y 1).val ∧ (y 1).val < 3377)
      ∨ (3377 ≤ (y 1).val ∧ (y 1).val < 3400) ∨ (3400 ≤ (y 1).val ∧ (y 1).val < 3422)
      ∨ (3422 ≤ (y 1).val ∧ (y 1).val < 3443) ∨ (3443 ≤ (y 1).val ∧ (y 1).val < 3463)
      ∨ (3463 ≤ (y 1).val ∧ (y 1).val < 3482) ∨ (3482 ≤ (y 1).val ∧ (y 1).val < 3500)
      ∨ (3500 ≤ (y 1).val ∧ (y 1).val < 3517) ∨ (3517 ≤ (y 1).val ∧ (y 1).val < 3533)
      ∨ (3533 ≤ (y 1).val ∧ (y 1).val < 3548) ∨ (3548 ≤ (y 1).val ∧ (y 1).val < 3562)
      ∨ (3562 ≤ (y 1).val ∧ (y 1).val < 3575) ∨ (3575 ≤ (y 1).val ∧ (y 1).val < 3587)
      ∨ (3587 ≤ (y 1).val ∧ (y 1).val < 3598) ∨ (3598 ≤ (y 1).val ∧ (y 1).val < 3608)
      ∨ (3608 ≤ (y 1).val ∧ (y 1).val < 3617) ∨ (3617 ≤ (y 1).val ∧ (y 1).val < 3625)
      ∨ (3625 ≤ (y 1).val ∧ (y 1).val < 3632) ∨ (3632 ≤ (y 1).val ∧ (y 1).val < 3638)
      ∨ (3638 ≤ (y 1).val ∧ (y 1).val < 3643) ∨ (3643 ≤ (y 1).val ∧ (y 1).val < 3647)
      ∨ (3647 ≤ (y 1).val ∧ (y 1).val < 3650) ∨ (3650 ≤ (y 1).val ∧ (y 1).val < 3652)
      ∨ (3652 ≤ (y 1).val ∧ (y 1).val < 3653) ∨ 3653 ≤ (y 1).val := by omega
  rcases hcol with h | h | h | h | h | h | h | h | h | h | h | h | h | h | h | h | h | h | h | h | h | h | h | h | h | h | h
  · piece 26 columns 0 width 3328
  · piece 24 columns 3328 width 25
  · piece 23 columns 3353 width 24
  · piece 22 columns 3377 width 23
  · piece 21 columns 3400 width 22
  · piece 20 columns 3422 width 21
  · piece 19 columns 3443 width 20
  · piece 18 columns 3463 width 19
  · piece 17 columns 3482 width 18
  · piece 16 columns 3500 width 17
  · piece 15 columns 3517 width 16
  · piece 14 columns 3533 width 15
  · piece 13 columns 3548 width 14
  · piece 12 columns 3562 width 13
  · piece 11 columns 3575 width 12
  · piece 10 columns 3587 width 11
  · piece 9 columns 3598 width 10
  · piece 8 columns 3608 width 9
  · piece 7 columns 3617 width 8
  · piece 6 columns 3625 width 7
  · piece 5 columns 3632 width 6
  · piece 4 columns 3638 width 5
  · piece 3 columns 3643 width 4
  · piece 2 columns 3647 width 3
  · piece 1 columns 3650 width 2
  · piece 0 columns 3652 width 1
  · piece 25 columns 3653 width 128

end Cert.KernelIdeal.Block

end
-- ==== Proof.PairSpec.lean ====
/-
  The result of the pairwise feature interaction, as one function of the two argument arrays.

  A row of the sparse array holds 26 feature vectors of 128 entries each, laid end to end (feature `f` occupies
  columns `128 f … 128 f + 127`). The result row has 3781 columns: the 3328 sparse columns unchanged, then one
  column per unordered pair of distinct features `f < g`, holding the inner product `∑ₖ x[f,k] · x[g,k]`, the pairs
  taken row by row through the strict upper triangle of the 26 × 26 table — (0,1), …, (0,25), (1,2), …, (24,25),
  325 pairs — and last the 128 dense columns unchanged.
-/
import Idealize.ShloMosaic.PureOps.Ideal
import Idealize.ShloMosaic.Lib.ValueIdx

noncomputable section

namespace Cert.Interaction

open Idealize.ShloMosaic Idealize.ShloMosaic.ValueIdx

/-- The strict upper triangle of the 26 × 26 table, row by row. -/
def pairList : List (Fin 26 × Fin 26) :=
  (List.finRange 26).flatMap fun f => ((List.finRange 26).filter fun g => f < g).map fun g => (f, g)

/-- The `p`-th pair of the triangle (any pair past the end: it is never asked for). -/
def pairAt (p : ℕ) : Fin 26 × Fin 26 := pairList.getD p (0, 0)

/-- Column `128 f + k` of the sparse array: entry `k` of feature `f`. -/
def lane (f : Fin 26) (k : Fin 128) : Fin 3328 := ⟨f.val * 128 + k.val, by omega⟩

/-- Row `f` of the triangle starts at pair number `25 + 24 + … + (26 − f)`. -/
def rowStart (f : ℕ) : ℕ := f * 25 - f * (f - 1) / 2

/-- The inner product of features `f` and `g` of row `r`. -/
def dotPair {B : ℕ} (x : (⟨2, ![B, 3328]⟩ : Shape).Idx → EReal) (r : Fin B) (f g : Fin 26) : EReal :=
  ∑ k : Fin 128, x (ix2 r (lane f k)) * x (ix2 r (lane g k))

/-- The result at row `r`, column `c`. -/
def interactAt {B : ℕ} (x : (⟨2, ![B, 3328]⟩ : Shape).Idx → EReal) (d : (⟨2, ![B, 128]⟩ : Shape).Idx → EReal)
    (r : Fin B) (c : Fin 3781) : EReal :=
  if h : c.val < 3328 then x (ix2 r ⟨c.val, h⟩)
  else if c.val < 3653 then dotPair x r (pairAt (c.val - 3328)).1 (pairAt (c.val - 3328)).2
  else d (ix2 r ⟨c.val - 3653, by omega⟩)

/-- The whole result array, for any number `B` of rows. -/
def interact {B : ℕ} (x : (⟨2, ![B, 3328]⟩ : Shape).Idx → EReal) (d : (⟨2, ![B, 128]⟩ : Shape).Idx → EReal) :
    (⟨2, ![B, 3781]⟩ : Shape).Idx → EReal :=
  fun i => interactAt x d (i 0) (i 1)

theorem interact_ix2 {B : ℕ} (x : (⟨2, ![B, 3328]⟩ : Shape).Idx → EReal) (d : (⟨2, ![B, 128]⟩ : Shape).Idx → EReal)
    (r : Fin B) (c : Fin 3781) : interact x d (ix2 r c) = interactAt x d r c := rfl

/-- Pair number `rowStart f + j` is `(f, f + 1 + j)`: row `f` of the triangle has the `25 − f` pairs whose second
    feature runs from `f + 1` to `25`. -/
theorem pairAt_rowStart : ∀ f : Fin 25, ∀ j : Fin 25, j.val < 25 - f.val →
    ((pairAt (rowStart f.val + j.val)).1.val = f.val ∧ (pairAt (rowStart f.val + j.val)).2.val = f.val + 1 + j.val) := by
  decide +kernel

theorem interactAt_sparse {B : ℕ} (x : (⟨2, ![B, 3328]⟩ : Shape).Idx → EReal) (d : (⟨2, ![B, 128]⟩ : Shape).Idx → EReal)
    (r : Fin B) (c : Fin 3781) (h : c.val < 3328) : interactAt x d r c = x (ix2 r ⟨c.val, h⟩) := by
  unfold interactAt; rw [dif_pos h]

theorem interactAt_pair {B : ℕ} (x : (⟨2, ![B, 3328]⟩ : Shape).Idx → EReal) (d : (⟨2, ![B, 128]⟩ : Shape).Idx → EReal)
    (r : Fin B) (c : Fin 3781) (h : 3328 ≤ c.val) (h' : c.val < 3653) :
    interactAt x d r c = dotPair x r (pairAt (c.val - 3328)).1 (pairAt (c.val - 3328)).2 := by
  unfold interactAt; rw [dif_neg (by omega), if_pos h']

theorem interactAt_dense {B : ℕ} (x : (⟨2, ![B, 3328]⟩ : Shape).Idx → EReal) (d : (⟨2, ![B, 128]⟩ : Shape).Idx → EReal)
    (r : Fin B) (c : Fin 3781) (h : 3653 ≤ c.val) :
    interactAt x d r c = d (ix2 r ⟨c.val - 3653, by omega⟩) := by
  unfold interactAt; rw [dif_neg (by omega), if_neg (by omega)]

end Cert.Interaction

end
-- ==== Proof.LibLaneBlocks.lean ====
/-
  A matrix whose rows are `w` blocks of `D` lanes laid end to end, for any extents.

  * Reading the matrix [B, w·D] as a rank-3 array [B, w, D] (a shape cast) puts lane `k` of block `j` of row `b` at
    column `j·D + k`.
  * `w` copies of one [B, D] matrix laid side by side read, at column `j·D + k`, that matrix at column `k`.
  * A vector sum over the last axis of a rank-3 array is, at (b, j), the sum over the lanes `k` of the array at (b, j, k).
  * So the sum over each block's lanes of the lane-wise product of `w` copies of the columns `o₁ …` of a matrix `x` with its
    columns `o₂ …` (`w·D` of them) is, at (b, j), `∑ₖ x[b, o₁ + k] · x[b, o₂ + j·D + k]` on the extended reals.
-/
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.LaneBlocks

open Idealize.ShloMosaic Idealize.ShloMosaic.ValueIdx

variable {B w D W N : ℕ}

/-- Lane `k` of block `j` is a column of the matrix. -/
theorem block_lt (hW : W = w * D) (j : Fin w) (k : Fin D) : j.val * D + k.val < W := by
  subst hW
  calc j.val * D + k.val < j.val * D + D := Nat.add_lt_add_left k.isLt _
    _ = (j.val + 1) * D := by ring
    _ ≤ w * D := Nat.mul_le_mul_right _ j.isLt

/-- The matrix [B, W] read as [B, w, D]: the entry at (b, j, k) is the matrix's at (b, j·D + k). -/
theorem shapeCast_blocks_apply {α : Type} (x : (⟨2, ![B, W]⟩ : Shape).Idx → α)
    (h : (⟨2, ![B, W]⟩ : Shape).ShapeCasts ⟨3, ![B, w, D]⟩) (hW : W = w * D) (b : Fin B) (j : Fin w) (k : Fin D) :
    shapeCast ⟨3, ![B, w, D]⟩ x h (ix3 b j k) = x (ix2 b ⟨j.val * D + k.val, block_lt hW j k⟩) :=
  shapeCast_apply x h _ _ (by
    rw [Shape.rowMajor_val_two, Shape.rowMajor_val_three]
    show b.val * W + (j.val * D + k.val) = (b.val * w + j.val) * D + k.val
    subst hW; ring)

/-- `w` copies of one matrix side by side: column `j·D + k` is the matrix's column `k`. -/
theorem copies_apply {α : Type} (y : (⟨2, ![B, D]⟩ : Shape).Idx → α)
    (l : List ((s : Shape) × (s.Idx → α))) (hl : l = List.ofFn fun _ : Fin w => (⟨⟨2, ![B, D]⟩, y⟩ : (s : Shape) × (s.Idx → α)))
    (h : Shape.Concatenates (l.map (·.1)) ⟨2, ![B, W]⟩ 1)
    (b : Fin B) (j : Fin w) (k : Fin D) (c : Fin W) (hc : c.val = j.val * D + k.val) :
    concatenate ⟨2, ![B, W]⟩ 1 l h (ix2 b c) = y (ix2 b k) := by
  subst hl
  have hD : 0 < D := Nat.lt_of_le_of_lt (Nat.zero_le _) k.isLt
  exact concatenate_ofFn_apply (t := ⟨2, ![B, W]⟩) (s₁ := ⟨2, ![B, D]⟩) 1 (fun _ : Fin w => y) h rfl D rfl (ix2 b c) j
    (by show c.val / D = j.val
        rw [hc, Nat.add_comm, Nat.add_mul_div_right _ _ hD, Nat.div_eq_of_lt k.isLt, Nat.zero_add])
    (ix2 b k)
    (by show k.val = c.val % D
        rw [hc, Nat.add_comm, Nat.add_mul_mod_self_right, Nat.mod_eq_of_lt k.isLt])
    (fun a ha => by
      match a with
      | ⟨0, _⟩ => rfl
      | ⟨1, _⟩ => exact absurd rfl ha)

/-- The vector sum over the lanes: at (b, j) the sum over `k` of the array at (b, j, k). -/
theorem sum_lanes_apply (src : FVec Ideal ⟨3, ![B, w, D]⟩ .f32) (acc : BitVec 32)
    (h : (⟨3, ![B, w, D]⟩ : Shape).Reduces [2] ⟨2, ![B, w]⟩) (hφ : FKind.Formats .f32)
    (hacc : acc = FKind.add.neutral .f32 hφ) (b : Fin B) (j : Fin w) :
    multiReduction .add [2] ⟨2, ![B, w]⟩ src acc h hφ hacc (ix2 b j) = ∑ k : Fin D, src (ix3 b j k) := by
  refine (Ideal.multiReduction_add_single src acc h hφ hacc (ix2 b j)).trans ?_
  show ∑ k : Fin D, src (h.lift (ix2 b j) k) = _
  refine Finset.sum_congr rfl fun k _ => congrArg src ?_
  funext c
  apply Fin.ext
  match c with
  | ⟨0, _⟩ => rfl
  | ⟨1, _⟩ => rfl
  | ⟨2, _⟩ => rfl

/-- The inner products of one block of lanes with each of `w` consecutive blocks, as the vector unit spells them. -/
theorem lane_dots_apply (x : FVec Ideal ⟨2, ![B, N]⟩ .f32) (o₁ o₂ : ℕ)
    (h₁ : (⟨2, ![B, N]⟩ : Shape).Slices ![0, o₁] ⟨2, ![B, D]⟩)
    (h₂ : (⟨2, ![B, N]⟩ : Shape).Slices ![0, o₂] ⟨2, ![B, W]⟩)
    (l : List ((s : Shape) × (s.Idx → Ideal .f32)))
    (hl : l = List.ofFn fun _ : Fin w =>
      (⟨⟨2, ![B, D]⟩, extractStridedSlice ⟨2, ![B, D]⟩ ![0, o₁] x h₁⟩ : (s : Shape) × (s.Idx → Ideal .f32)))
    (hc : Shape.Concatenates (l.map (·.1)) ⟨2, ![B, W]⟩ 1)
    (hs : (⟨2, ![B, W]⟩ : Shape).ShapeCasts ⟨3, ![B, w, D]⟩) (hW : W = w * D)
    (hr : (⟨3, ![B, w, D]⟩ : Shape).Reduces [2] ⟨2, ![B, w]⟩) (hφ : FKind.Formats .f32)
    (hacc : (0x00000000#32 : BitVec 32) = FKind.add.neutral .f32 hφ)
    (b : Fin B) (j : Fin w) (c₁ c₂ : Fin D → Fin N)
    (hc₁ : ∀ k, (c₁ k).val = o₁ + k.val) (hc₂ : ∀ k, (c₂ k).val = o₂ + (j.val * D + k.val)) :
    multiReduction .add [2] ⟨2, ![B, w]⟩
        (shapeCast ⟨3, ![B, w, D]⟩
          (mulf (concatenate ⟨2, ![B, W]⟩ 1 l hc : FVec Ideal ⟨2, ![B, W]⟩ .f32)
            (extractStridedSlice ⟨2, ![B, W]⟩ ![0, o₂] x h₂)) hs)
        0x00000000#32 hr hφ hacc (ix2 b j)
      = ∑ k : Fin D, x (ix2 b (c₁ k)) * x (ix2 b (c₂ k)) := by
  refine (sum_lanes_apply _ _ hr hφ hacc b j).trans (Finset.sum_congr rfl fun k _ => ?_)
  rw [shapeCast_blocks_apply _ hs hW b j k, mulf_apply,
    copies_apply _ l hl hc b j k _ rfl,
    slice2_axis1_apply o₁ x h₁ b k (c₁ k) (hc₁ k),
    slice2_axis1_apply o₂ x h₂ b ⟨j.val * D + k.val, block_lt hW j k⟩ (c₂ k) (hc₂ k)]

/-- The same for ONE block (`w = 1`): no copies are laid out, the two slices are multiplied as they are. -/
theorem lane_dot_apply (x : FVec Ideal ⟨2, ![B, N]⟩ .f32) (o₁ o₂ : ℕ)
    (h₁ : (⟨2, ![B, N]⟩ : Shape).Slices ![0, o₁] ⟨2, ![B, D]⟩)
    (h₂ : (⟨2, ![B, N]⟩ : Shape).Slices ![0, o₂] ⟨2, ![B, D]⟩)
    (hs : (⟨2, ![B, D]⟩ : Shape).ShapeCasts ⟨3, ![B, 1, D]⟩)
    (hr : (⟨3, ![B, 1, D]⟩ : Shape).Reduces [2] ⟨2, ![B, 1]⟩) (hφ : FKind.Formats .f32)
    (hacc : (0x00000000#32 : BitVec 32) = FKind.add.neutral .f32 hφ)
    (b : Fin B) (j : Fin 1) (c₁ c₂ : Fin D → Fin N)
    (hc₁ : ∀ k, (c₁ k).val = o₁ + k.val) (hc₂ : ∀ k, (c₂ k).val = o₂ + k.val) :
    multiReduction .add [2] ⟨2, ![B, 1]⟩
        (shapeCast ⟨3, ![B, 1, D]⟩
          (mulf (extractStridedSlice ⟨2, ![B, D]⟩ ![0, o₁] x h₁ : FVec Ideal ⟨2, ![B, D]⟩ .f32)
            (extractStridedSlice ⟨2, ![B, D]⟩ ![0, o₂] x h₂)) hs)
        0x00000000#32 hr hφ hacc (ix2 b j)
      = ∑ k : Fin D, x (ix2 b (c₁ k)) * x (ix2 b (c₂ k)) := by
  refine (sum_lanes_apply _ _ hr hφ hacc b j).trans (Finset.sum_congr rfl fun k _ => ?_)
  have hj : j.val = 0 := by omega
  rw [shapeCast_blocks_apply _ hs (by omega : D = 1 * D) b j k, mulf_apply,
    slice2_axis1_apply o₁ x h₁ b ⟨j.val * D + k.val, block_lt (by omega : D = 1 * D) j k⟩ (c₁ k)
      (by rw [hc₁ k]; show _ = o₁ + (j.val * D + k.val); rw [hj]; omega),
    slice2_axis1_apply o₂ x h₂ b ⟨j.val * D + k.val, block_lt (by omega : D = 1 * D) j k⟩ (c₂ k)
      (by rw [hc₂ k]; show _ = o₂ + (j.val * D + k.val); rw [hj]; omega)]

end Idealize.ShloMosaic.LaneBlocks

end
-- ==== Proof.PairPieces.lean ====
/-
  Each kind of piece the kernel stores into a block of the result is the matching piece of `interact`.

  A block of the result has three kinds of column ranges: the sparse columns (a copy of the sparse block), the dense
  columns (a copy of the dense block), and for each first feature `f` the `25 − f` pair columns of row `f` of the
  triangle, which hold the inner products of feature `f` with features `f + 1 … 25`. The vector unit forms a row of
  the triangle at once: `25 − f` copies of feature `f`'s lanes laid side by side, times the lanes of all later features,
  summed over each feature's 128 lanes. Also: `interact` at a row depends on that row of the arguments only.
-/
import proofs.«141904_j12283606468241_2_alg».proof.Proof.PairSpec
import proofs.«141904_j12283606468241_2_alg».proof.Proof.LibLaneBlocks

noncomputable section

namespace Cert.Interaction

open Idealize.ShloMosaic Idealize.ShloMosaic.ValueIdx Idealize.ShloMosaic.LaneBlocks

variable {B : ℕ}

/-- The result at a row is a function of that row of the two arguments. -/
theorem interactAt_congr {B' : ℕ} (x : (⟨2, ![B, 3328]⟩ : Shape).Idx → EReal) (d : (⟨2, ![B, 128]⟩ : Shape).Idx → EReal)
    (x' : (⟨2, ![B', 3328]⟩ : Shape).Idx → EReal) (d' : (⟨2, ![B', 128]⟩ : Shape).Idx → EReal) (r : Fin B) (r' : Fin B')
    (hx : ∀ c, x (ix2 r c) = x' (ix2 r' c)) (hd : ∀ c, d (ix2 r c) = d' (ix2 r' c)) (c : Fin 3781) :
    interactAt x d r c = interactAt x' d' r' c := by
  unfold interactAt dotPair
  simp only [hx, hd]

/-- Row `f` of the triangle and the `25 − f` pairs in it stay inside the 325 pairs. -/
theorem rowStart_add_le : ∀ f : Fin 25, rowStart f.val + (25 - f.val) ≤ 325 := by decide

/-- A piece of `w = 25 − f` pair columns starting at row `f` of the triangle, whose entry (b, j) is the inner product
    of features `f` and `f + 1 + j` of row `b`, is that piece of `interact`. -/
theorem pairs_piece (x0 : (⟨2, ![B, 3328]⟩ : Shape).Idx → EReal) (x1 : (⟨2, ![B, 128]⟩ : Shape).Idx → EReal)
    (f : Fin 25) (w off : ℕ) (hw : w = 25 - f.val) (hoff : off = 3328 + rowStart f.val)
    (inb : ∀ a, (![0, off] : Fin 2 → ℕ) a + (![B, w] : Fin 2 → ℕ) a ≤ (⟨2, ![B, 3781]⟩ : Shape).size a)
    (pay : (⟨2, ![B, w]⟩ : Shape).Idx → EReal)
    (hpay : ∀ (b : Fin B) (j : Fin w) (g : Fin 26), g.val = f.val + 1 + j.val →
      pay (ix2 b j) = dotPair x0 b ⟨f.val, by omega⟩ g)
    (x : (⟨2, ![B, w]⟩ : Shape).Idx) :
    pay x = interact x0 x1 ((Rect.unit (s := ⟨2, ![B, 3781]⟩) ![0, off] ![B, w] inb).emb x) := by
  obtain ⟨b, j, rfl⟩ : ∃ (b : Fin B) (j : Fin w), x = ix2 b j := ⟨x 0, x 1, eq_ix2 x⟩
  have hj : j.val < 25 - f.val := hw ▸ j.isLt
  have hle := rowStart_add_le f
  have hcol : off + j.val < 3781 := by omega
  have he : (Rect.unit (s := ⟨2, ![B, 3781]⟩) ![0, off] ![B, w] inb).emb (ix2 b j) = ix2 b ⟨off + j.val, hcol⟩ := by
    funext a
    apply Fin.ext
    match a with
    | ⟨0, _⟩ => show 0 + 1 * b.val = b.val; omega
    | ⟨1, _⟩ => show off + 1 * j.val = off + j.val; omega
  rw [he, interact_ix2, interactAt_pair x0 x1 b ⟨off + j.val, hcol⟩ (by show 3328 ≤ off + j.val; omega)
    (by show off + j.val < 3653; omega)]
  have hp : off + j.val - 3328 = rowStart f.val + j.val := by omega
  obtain ⟨h1, h2⟩ := pairAt_rowStart f ⟨j.val, by omega⟩ hj
  show pay (ix2 b j) = dotPair x0 b (pairAt (off + j.val - 3328)).1 (pairAt (off + j.val - 3328)).2
  rw [hp, hpay b j (pairAt (rowStart f.val + j.val)).2 h2]
  exact congrArg (fun g => dotPair x0 b g (pairAt (rowStart f.val + j.val)).2) (Fin.ext h1.symm)

/-- The vector unit's row `f` of the triangle (`w` copies of feature `f`'s lanes times the lanes of the `w` later
    features, summed feature by feature), stored at row `f`'s columns, is that piece of `interact`. -/
theorem dots_piece (x0 : FVec Ideal ⟨2, ![B, 3328]⟩ .f32) (x1 : (⟨2, ![B, 128]⟩ : Shape).Idx → EReal)
    (f : Fin 25) (w W off o₁ o₂ : ℕ) (hw : w = 25 - f.val) (hW : W = w * 128) (hoff : off = 3328 + rowStart f.val)
    (ho₁ : o₁ = f.val * 128) (ho₂ : o₂ = (f.val + 1) * 128)
    (h₁ : (⟨2, ![B, 3328]⟩ : Shape).Slices ![0, o₁] ⟨2, ![B, 128]⟩)
    (h₂ : (⟨2, ![B, 3328]⟩ : Shape).Slices ![0, o₂] ⟨2, ![B, W]⟩)
    (l : List ((s : Shape) × (s.Idx → Ideal .f32)))
    (hl : l = List.ofFn fun _ : Fin w =>
      (⟨⟨2, ![B, 128]⟩, extractStridedSlice ⟨2, ![B, 128]⟩ ![0, o₁] x0 h₁⟩ : (s : Shape) × (s.Idx → Ideal .f32)))
    (hc : Shape.Concatenates (l.map (·.1)) ⟨2, ![B, W]⟩ 1)
    (hs : (⟨2, ![B, W]⟩ : Shape).ShapeCasts ⟨3, ![B, w, 128]⟩)
    (hr : (⟨3, ![B, w, 128]⟩ : Shape).Reduces [2] ⟨2, ![B, w]⟩) (hφ : FKind.Formats .f32)
    (hacc : (0x00000000#32 : BitVec 32) = FKind.add.neutral .f32 hφ)
    (inb : ∀ a, (![0, off] : Fin 2 → ℕ) a + (![B, w] : Fin 2 → ℕ) a ≤ (⟨2, ![B, 3781]⟩ : Shape).size a)
    (x : (⟨2, ![B, w]⟩ : Shape).Idx) :
    multiReduction .add [2] ⟨2, ![B, w]⟩
        (shapeCast ⟨3, ![B, w, 128]⟩
          (mulf (concatenate ⟨2, ![B, W]⟩ 1 l hc : FVec Ideal ⟨2, ![B, W]⟩ .f32)
            (extractStridedSlice ⟨2, ![B, W]⟩ ![0, o₂] x0 h₂)) hs)
        0x00000000#32 hr hφ hacc x
      = interact x0 x1 ((Rect.unit (s := ⟨2, ![B, 3781]⟩) ![0, off] ![B, w] inb).emb x) :=
  pairs_piece x0 x1 f w off hw hoff inb _ (fun b j g hg =>
    lane_dots_apply x0 o₁ o₂ h₁ h₂ l hl hc hs hW hr hφ hacc b j (lane ⟨f.val, by omega⟩) (lane g)
      (fun k => by show f.val * 128 + k.val = o₁ + k.val; omega)
      (fun k => by show g.val * 128 + k.val = o₂ + (j.val * 128 + k.val); rw [hg, ho₂]; ring)) x

/-- The last row of the triangle has ONE pair, (24, 25): no copies are laid out. -/
theorem dot_piece (x0 : FVec Ideal ⟨2, ![B, 3328]⟩ .f32) (x1 : (⟨2, ![B, 128]⟩ : Shape).Idx → EReal)
    (h₁ : (⟨2, ![B, 3328]⟩ : Shape).Slices ![0, 3072] ⟨2, ![B, 128]⟩)
    (h₂ : (⟨2, ![B, 3328]⟩ : Shape).Slices ![0, 3200] ⟨2, ![B, 128]⟩)
    (hs : (⟨2, ![B, 128]⟩ : Shape).ShapeCasts ⟨3, ![B, 1, 128]⟩)
    (hr : (⟨3, ![B, 1, 128]⟩ : Shape).Reduces [2] ⟨2, ![B, 1]⟩) (hφ : FKind.Formats .f32)
    (hacc : (0x00000000#32 : BitVec 32) = FKind.add.neutral .f32 hφ)
    (inb : ∀ a, (![0, 3652] : Fin 2 → ℕ) a + (![B, 1] : Fin 2 → ℕ) a ≤ (⟨2, ![B, 3781]⟩ : Shape).size a)
    (x : (⟨2, ![B, 1]⟩ : Shape).Idx) :
    multiReduction .add [2] ⟨2, ![B, 1]⟩
        (shapeCast ⟨3, ![B, 1, 128]⟩
          (mulf (extractStridedSlice ⟨2, ![B, 128]⟩ ![0, 3072] x0 h₁ : FVec Ideal ⟨2, ![B, 128]⟩ .f32)
            (extractStridedSlice ⟨2, ![B, 128]⟩ ![0, 3200] x0 h₂)) hs)
        0x00000000#32 hr hφ hacc x
      = interact x0 x1 ((Rect.unit (s := ⟨2, ![B, 3781]⟩) ![0, 3652] ![B, 1] inb).emb x) :=
  pairs_piece x0 x1 ⟨24, by decide⟩ 1 3652 rfl (by decide) inb _ (fun b j g hg =>
    lane_dot_apply x0 3072 3200 h₁ h₂ hs hr hφ hacc b j (lane ⟨24, by decide⟩) (lane g)
      (fun k => by show 24 * 128 + k.val = 3072 + k.val; omega)
      (fun k => by
        show g.val * 128 + k.val = 3200 + k.val
        have hj : j.val = 0 := by omega
        have : g.val = 24 + 1 + j.val := hg
        omega)) x

/-- The sparse block stored at the sparse columns is that piece of `interact`. -/
theorem sparse_piece (x0 : (⟨2, ![B, 3328]⟩ : Shape).Idx → EReal) (x1 : (⟨2, ![B, 128]⟩ : Shape).Idx → EReal)
    (inb : ∀ a, (![0, 0] : Fin 2 → ℕ) a + (![B, 3328] : Fin 2 → ℕ) a ≤ (⟨2, ![B, 3781]⟩ : Shape).size a)
    (x : (⟨2, ![B, 3328]⟩ : Shape).Idx) :
    x0 x = interact x0 x1 ((Rect.unit (s := ⟨2, ![B, 3781]⟩) ![0, 0] ![B, 3328] inb).emb x) := by
  obtain ⟨b, j, rfl⟩ : ∃ (b : Fin B) (j : Fin 3328), x = ix2 b j := ⟨x 0, x 1, eq_ix2 x⟩
  have he : (Rect.unit (s := ⟨2, ![B, 3781]⟩) ![0, 0] ![B, 3328] inb).emb (ix2 b j) = ix2 b ⟨j.val, by omega⟩ := by
    funext a
    apply Fin.ext
    match a with
    | ⟨0, _⟩ => show 0 + 1 * b.val = b.val; omega
    | ⟨1, _⟩ => show 0 + 1 * j.val = j.val; omega
  rw [he, interact_ix2, interactAt_sparse x0 x1 b ⟨j.val, by omega⟩ j.isLt]

/-- The dense block stored at the dense columns is that piece of `interact`. -/
theorem dense_piece (x0 : (⟨2, ![B, 3328]⟩ : Shape).Idx → EReal) (x1 : (⟨2, ![B, 128]⟩ : Shape).Idx → EReal)
    (inb : ∀ a, (![0, 3653] : Fin 2 → ℕ) a + (![B, 128] : Fin 2 → ℕ) a ≤ (⟨2, ![B, 3781]⟩ : Shape).size a)
    (x : (⟨2, ![B, 128]⟩ : Shape).Idx) :
    x1 x = interact x0 x1 ((Rect.unit (s := ⟨2, ![B, 3781]⟩) ![0, 3653] ![B, 128] inb).emb x) := by
  obtain ⟨b, j, rfl⟩ : ∃ (b : Fin B) (j : Fin 128), x = ix2 b j := ⟨x 0, x 1, eq_ix2 x⟩
  have he : (Rect.unit (s := ⟨2, ![B, 3781]⟩) ![0, 3653] ![B, 128] inb).emb (ix2 b j) = ix2 b ⟨3653 + j.val, by omega⟩ := by
    funext a
    apply Fin.ext
    match a with
    | ⟨0, _⟩ => show 0 + 1 * b.val = b.val; omega
    | ⟨1, _⟩ => show 3653 + 1 * j.val = 3653 + j.val; omega
  rw [he, interact_ix2, interactAt_dense x0 x1 b ⟨3653 + j.val, by omega⟩ (by show 3653 ≤ 3653 + j.val; omega)]
  exact congrArg x1 (congrArg (ix2 b) (Fin.ext (by show j.val = 3653 + j.val - 3653; omega)))

end Cert.Interaction

end
-- ==== Proof.KernelBlock.lean ====
/-
  What the kernel's body leaves in the output block, as one function of the two input blocks: `interact` at 512 rows.

  The body stores 27 pieces into the block: the sparse block at the sparse columns, the dense block at the dense
  columns, and one piece per row `f = 0 … 24` of the triangle at that row's pair columns. Each piece is the matching
  piece of `interact` (the three kinds of piece are read in the module of pieces), and together they cover the block,
  so the block read back is `interact` of the input blocks at every index.
-/
import proofs.«141904_j12283606468241_2_alg».proof.Proof.FrameIdealP
import proofs.«141904_j12283606468241_2_alg».proof.Proof.PairPieces
import Idealize.ShloMosaic.Lib.Pipeline.Value

set_option maxRecDepth 16384

noncomputable section

namespace Cert.KernelIdeal.Block

open Cert.KernelIdeal Cert.KernelIdeal.Gen Cert.KernelIdeal.GenP Cert.Interaction
open Idealize.ShloMosaic Idealize.ShloMosaic.TcCoe Idealize.ShloMosaic.Tactic Idealize.SL.Sem Idealize.ShloMosaic.ValueIdx

theorem zero_offsets : (![0, 0] : Fin 2 → Nat) = fun _ => 0 := funext fun a => by fin_cases a <;> rfl

/-- Row `f` of the triangle: `w = 25 − f` copies of feature `f`'s lanes (columns `o₁ …`) times the `W = 128 w` lanes from
    column `o₂ = o₁ + 128` on, summed feature by feature, stored at columns `off …`. -/
local macro "row " f:num " width " w:num " lanes " W:num " at " off:num " from " o1:num " against " o2:num : tactic =>
  `(tactic| exact fun x => dots_piece _ _ ⟨$f, by decide⟩ $w $W $off $o1 $o2 (by decide) (by decide) (by decide) (by decide)
      (by decide) (by decide) (by decide) _ rfl
      (show Shape.Concatenates (List.replicate $w (⟨2, ![512, 128]⟩ : Shape)) ⟨2, ![512, $W]⟩ 1 by decide)
      (by decide) (by decide) (.inl rfl) rfl (by decide) x)

/-- Every stored piece is the matching piece of `interact` of the two loaded blocks. -/
theorem pieces_agree (c : Dev nD) (i : grid0.Coords) (arg1 : Memref sig .tc .vmem S512x3328 .f32) (harg1 : arg1.IsWhole)
    (arg2 : Memref sig .tc .vmem S512x128 .f32) (harg2 : arg2.IsWhole) (arg3 : Memref sig .tc .vmem S512x3781 .f32)
    (harg3 : arg3.IsWhole) (x0 : Vec Ideal S512x3328 .f32) (x1 : Vec Ideal S512x128 .f32) :
    ∀ p ∈ (kernelRun0_A (F := Ideal) c i arg1 harg1 arg2 harg2 arg3 harg3 x0 x1).1,
      ∀ x : p.1.shape.Idx, p.2 x = interact (B := 512) x0 x1 (p.1.emb x) := by
  unfold kernelRun0_A
  dsimp only
  sl_unfold_run_names
  simp only [View.readAt_eq_ld, harg1.read_unread, harg2.read_unread, View.ld_unit_zero (S := S512x3328) zero_offsets,
    View.ld_unit_zero (S := S512x128) zero_offsets]
  intro p hp
  simp only [List.mem_cons, List.mem_nil_iff, or_false] at hp
  rcases hp with rfl | rfl | rfl | rfl | rfl | rfl | rfl | rfl | rfl | rfl | rfl | rfl | rfl | rfl | rfl | rfl | rfl | rfl
    | rfl | rfl | rfl | rfl | rfl | rfl | rfl | rfl | rfl
  · exact fun x => dot_piece _ _ (by decide) (by decide) (by decide) (by decide) (.inl rfl) rfl (by decide) x
  · row 23 width 2 lanes 256 at 3650 from 2944 against 3072
  · row 22 width 3 lanes 384 at 3647 from 2816 against 2944
  · row 21 width 4 lanes 512 at 3643 from 2688 against 2816
  · row 20 width 5 lanes 640 at 3638 from 2560 against 2688
  · row 19 width 6 lanes 768 at 3632 from 2432 against 2560
  · row 18 width 7 lanes 896 at 3625 from 2304 against 2432
  · row 17 width 8 lanes 1024 at 3617 from 2176 against 2304
  · row 16 width 9 lanes 1152 at 3608 from 2048 against 2176
  · row 15 width 10 lanes 1280 at 3598 from 1920 against 2048
  · row 14 width 11 lanes 1408 at 3587 from 1792 against 1920
  · row 13 width 12 lanes 1536 at 3575 from 1664 against 1792
  · row 12 width 13 lanes 1664 at 3562 from 1536 against 1664
  · row 11 width 14 lanes 1792 at 3548 from 1408 against 1536
  · row 10 width 15 lanes 1920 at 3533 from 1280 against 1408
  · row 9 width 16 lanes 2048 at 3517 from 1152 against 1280
  · row 8 width 17 lanes 2176 at 3500 from 1024 against 1152
  · row 7 width 18 lanes 2304 at 3482 from 896 against 1024
  · row 6 width 19 lanes 2432 at 3463 from 768 against 896
  · row 5 width 20 lanes 2560 at 3443 from 640 against 768
  · row 4 width 21 lanes 2688 at 3422 from 512 against 640
  · row 3 width 22 lanes 2816 at 3400 from 384 against 512
  · row 2 width 23 lanes 2944 at 3377 from 256 against 384
  · row 1 width 24 lanes 3072 at 3353 from 128 against 256
  · row 0 width 25 lanes 3200 at 3328 from 0 against 128
  · exact fun x => dense_piece _ _ (by decide) x
  · exact fun x => sparse_piece _ _ (by decide) x

/-- So the output block the body leaves is `interact` of the two input blocks: every index is in some piece. -/
theorem block_value (c : Dev nD) (i : grid0.Coords) (arg1 : Memref sig .tc .vmem S512x3328 .f32) (harg1 : arg1.IsWhole)
    (arg2 : Memref sig .tc .vmem S512x128 .f32) (harg2 : arg2.IsWhole) (arg3 : Memref sig .tc .vmem S512x3781 .f32)
    (harg3 : arg3.IsWhole) (x0 : Vec Ideal S512x3328 .f32) (x1 : Vec Ideal S512x128 .f32) :
    out0_A_2 (F := Ideal) c i arg1 harg1 arg2 harg2 arg3 harg3 x0 x1 = interact (B := 512) x0 x1 := by
  funext y
  unfold out0_A_2
  exact View.read_writes_apply_of_pieces _ _ (interact (B := 512) x0 x1) _
    (pieces_agree c i arg1 harg1 arg2 harg2 arg3 harg3 x0 x1) y (cover c i arg1 harg1 arg2 harg2 arg3 harg3 x0 x1 y)

end Cert.KernelIdeal.Block

end
-- ==== Proof.KernelValue.lean ====
/-
  The kernel's result array after the run is `interact` of the two argument arrays.

  The grid has 32 points; point `t` stages rows `512 t … 512 t + 511` of each array (all columns) and writes its output
  block back to the same rows of the result. What it writes back is `interact` of its two input blocks, and `interact`
  at a row depends on that row of the arguments only, so the block is the rows `512 t …` of `interact` of the whole
  arrays. The 32 blocks cover the result array.
-/
import proofs.«141904_j12283606468241_2_alg».proof.Proof.KernelBlock
import Idealize.ShloMosaic.Lib.Pipeline.Value

set_option maxRecDepth 16384

noncomputable section

namespace Cert.KernelIdeal.Whole

open Cert.KernelIdeal Cert.KernelIdeal.Gen Cert.KernelIdeal.GenP Cert.Interaction
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps over the 32 grid points: every window's block at point `t` is block `(t, 0)`. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 32 := lt_of_lt_of_eq t.isLt N_0

/-- Row `b` of block `t` is a row of the array. -/
theorem row_lt (t : Fin cfg0.N) (b : Fin 512) : t.val * 512 + b.val < 16384 := by
  have := point_lt t
  omega

/-- Row `b` of the sparse block at point `t` is row `512 t + b` of the sparse array … -/
theorem sparse_block_read (c : Dev nD) (t : Fin cfg0.N) (b : Fin 512) (k : Fin 3328) :
    iblk m c 0 t (ix2 b k) = V m c main_arg0 (ix2 ⟨t.val * 512 + b.val, row_lt t b⟩ k) := by
  obtain ⟨e0, e1, -⟩ := index_facts t
  show V m c main_arg0 (((cfg0.win 0).blk t).view.emb (ix2 b k)) = _
  refine congrArg (V m c main_arg0) (funext fun a => Fin.ext ?_)
  match a with
  | ⟨0, _⟩ => show win0_0.index t (0 : Fin 2) * 512 + 1 * b.val = t.val * 512 + b.val; rw [e0]; omega
  | ⟨1, _⟩ => show win0_0.index t (1 : Fin 2) * 3328 + 1 * k.val = k.val; rw [e1]; omega

/-- … and of the dense block, of the dense array. -/
theorem dense_block_read (c : Dev nD) (t : Fin cfg0.N) (b : Fin 512) (k : Fin 128) :
    iblk m c 1 t (ix2 b k) = V m c main_arg1 (ix2 ⟨t.val * 512 + b.val, row_lt t b⟩ k) := by
  obtain ⟨-, -, e2, e3, -⟩ := index_facts t
  show V m c main_arg1 (((cfg0.win 1).blk t).view.emb (ix2 b k)) = _
  refine congrArg (V m c main_arg1) (funext fun a => Fin.ext ?_)
  match a with
  | ⟨0, _⟩ => show win0_1.index t (0 : Fin 2) * 512 + 1 * b.val = t.val * 512 + b.val; rw [e2]; omega
  | ⟨1, _⟩ => show win0_1.index t (1 : Fin 2) * 128 + 1 * k.val = k.val; rw [e3]; omega

/-- WHAT POINT `t` WRITES BACK is block `t` of `interact` of the argument arrays. -/
theorem flushed_eq (c : Dev nD) (t : Fin cfg0.N) :
    (dats m 0 c).flushed 2 t
      = ((cfg0.win 2).blk t).view.read (Elt Ideal) (interact (B := 16384) (V m c main_arg0) (V m c main_arg1)) := by
  show (cfg0.win 2).cut (grid0.coords t) ((dats m 0 c).after 2 t) = _
  rw [after0_2]
  unfold outsAt0
  funext y
  show out0_A_2 c (grid0.coords t) (ms0_0 t) (hs0_0 t) (ms0_1 t) (hs0_1 t) (ms0_2 t) (hs0_2 t) (iblk m c 0 t) (iblk m c 1 t) y
    = interact (B := 16384) (V m c main_arg0) (V m c main_arg1) (((cfg0.win 2).blk t).view.emb y)
  rw [Block.block_value]
  obtain ⟨b, k, rfl⟩ : ∃ (b : Fin 512) (k : Fin 3781), y = ix2 b k := ⟨y 0, y 1, eq_ix2 (n0 := 512) (n1 := 3781) y⟩
  obtain ⟨-, -, -, -, e4, e5⟩ := index_facts t
  have he : ((cfg0.win 2).blk t).view.emb (ix2 b k) = ix2 ⟨t.val * 512 + b.val, row_lt t b⟩ k := by
    funext a
    apply Fin.ext
    match a with
    | ⟨0, _⟩ => show win0_2.index t (0 : Fin 2) * 512 + 1 * b.val = t.val * 512 + b.val; rw [e4]; omega
    | ⟨1, _⟩ => show win0_2.index t (1 : Fin 2) * 3781 + 1 * k.val = k.val; rw [e5]; omega
  rw [he, interact_ix2, interact_ix2]
  exact interactAt_congr _ _ _ _ b _ (sparse_block_read m c t b) (dense_block_read m c t b) k

/-- An index of the result array is in point `t`'s block iff each coordinate is in the block's range on its axis. -/
theorem mem_blk (t : Fin cfg0.N) (i : S16384x3781.Idx) :
    i ∈ ((cfg0.win 2).blk t).view.set ↔ ∀ a : Fin 2, win0_2.index t a * S512x3781.size a ≤ (i a).val
      ∧ (i a).val < win0_2.index t a * S512x3781.size a + S512x3781.size a := by
  show i ∈ ((View.whole main_v0).slice (win0_2.rect t)).set ↔ _
  rw [View.set_slice_whole, Rect.mem_set_unit]
  exact Iff.rfl

/-- Row `r` of the result array is in the block of point `r / 512`. -/
theorem cover (i : S16384x3781.Idx) :
    ∃ t : Fin cfg0.N, (cfg0.win 2).flush t = true ∧ i ∈ ((cfg0.win 2).blk t).view.set := by
  have hi0 : (i 0).val < 16384 := (i 0).isLt
  have hi1 : (i 1).val < 3781 := (i 1).isLt
  have hN : grid0.N = 32 := N_0
  have hq : (i 0).val / 512 < cfg0.N := by show (i 0).val / 512 < grid0.N; rw [hN]; omega
  obtain ⟨-, -, -, -, e4, e5⟩ := index_facts ⟨(i 0).val / 512, hq⟩
  refine ⟨⟨(i 0).val / 512, hq⟩, flush0_2 _, ?_⟩
  rw [mem_blk]
  intro a
  match a with
  | ⟨0, _⟩ =>
    show win0_2.index ⟨(i 0).val / 512, hq⟩ (0 : Fin 2) * 512 ≤ (i 0).val
      ∧ (i 0).val < win0_2.index ⟨(i 0).val / 512, hq⟩ (0 : Fin 2) * 512 + 512
    rw [e4]
    show (i 0).val / 512 * 512 ≤ (i 0).val ∧ (i 0).val < (i 0).val / 512 * 512 + 512
    omega
  | ⟨1, _⟩ =>
    show win0_2.index ⟨(i 0).val / 512, hq⟩ (1 : Fin 2) * 3781 ≤ (i 1).val
      ∧ (i 1).val < win0_2.index ⟨(i 0).val / 512, hq⟩ (1 : Fin 2) * 3781 + 3781
    rw [e5]
    omega

/-- THE RESULT ARRAY after the run. -/
theorem final (c : Dev nD) : (dats m 0 c).arrAt 2 cfg0.N
    = interact (B := 16384) (m ((c : Thread nD τ).loc main_arg0)) (m ((c : Thread nD τ).loc main_arg1)) :=
  (dats m 0 c).arrAt_eq_of_cover 2 _ (fun t _ => flushed_eq m c t) cover

/-- The kernel's run: the result array ends at `interact` of the arguments, the arguments unchanged. -/
theorem run : θ_run defs (onTc (τ := τ) (main (F := Ideal))) ⟨m, fun _ => 0, ρ⟩ fun r => ∀ c : Dev nD,
      r.2.mem ((c : Thread nD τ).loc main_v0)
        = interact (B := 16384) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Whole

end
-- ==== Proof.RefRun.lean ====
/-
  The reference program's run, read back: its nineteen host operations as a list, and the result array as ONE term of
  the two argument arrays.

  The reference reads each sparse row as 26 feature vectors of 128 entries (a reshape), forms all 26 × 26 inner products
  of a row's feature vectors (a batched contraction), picks the 325 entries of the strict upper triangle by a gather at
  a constant table of (row, column) pairs, and lays the sparse row, the 325 picked products and the dense row side by
  side.
-/
import proofs.«141904_j12283606468241_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The table of first features, as the program holds it. -/
abbrev tblFst : (⟨S325, .i32⟩ : BufTy).Contents (Elt F) := fun i => lit0 (S325.rowMajor i)
/-- The table of second features. -/
abbrev tblSnd : (⟨S325, .i32⟩ : BufTy).Contents (Elt F) := fun i => lit1 (S325.rowMajor i)

/-- @main's 19 operations, in order. -/
abbrev ops : List (HloOp τ sig (Elt F)) :=
  [ nullary main_c (fun i => lit0 (S325.rowMajor i)),
    nullary main_c_0 (constantI S325 1 0#1),
    nullary main_c_1 (fun i => lit1 (S325.rowMajor i)),
    nullary main_c_2 (constantI S325 1 0#1),
    reshape main_arg0 main_v0 rfl shapeCasts_S16384x3328_S16384x26x128,
    binary main_v0 main_v0 main_v1 ((fun l r => Host.dotGeneral dot_S16384x26x128_S16384x26x128_S16384x26x26_2_2_1_1_0_0 none l r) : (⟨S16384x26x128, .f32⟩ : BufTy).Contents (Elt F) → (⟨S16384x26x128, .f32⟩ : BufTy).Contents (Elt F) → (⟨S16384x26x26, .f32⟩ : BufTy).Contents (Elt F)),
    nullary main_c_3 (constantI S_ 32 26#32),
    unary main_c_3 main_v2 (broadcastInDim S325 ![] bcast_S_S325 : (⟨S_, .i32⟩ : BufTy).Contents (Elt F) → (⟨S325, .i32⟩ : BufTy).Contents (Elt F)),
    binary main_c main_v2 main_v3 (addi : (⟨S325, .i32⟩ : BufTy).Contents (Elt F) → (⟨S325, .i32⟩ : BufTy).Contents (Elt F) → (⟨S325, .i32⟩ : BufTy).Contents (Elt F)),
    ternary main_c_0 main_v3 main_c main_v4 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
    nullary main_c_4 (constantI S_ 32 26#32),
    unary main_c_4 main_v5 (broadcastInDim S325 ![] bcast_S_S325 : (⟨S_, .i32⟩ : BufTy).Contents (Elt F) → (⟨S325, .i32⟩ : BufTy).Contents (Elt F)),
    binary main_c_1 main_v5 main_v6 (addi : (⟨S325, .i32⟩ : BufTy).Contents (Elt F) → (⟨S325, .i32⟩ : BufTy).Contents (Elt F) → (⟨S325, .i32⟩ : BufTy).Contents (Elt F)),
    ternary main_c_2 main_v6 main_c_1 main_v7 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
    unary main_v4 main_v8 (broadcastInDim S325x1 ![0] bcast_S325_S325x1_0 : (⟨S325, .i32⟩ : BufTy).Contents (Elt F) → (⟨S325x1, .i32⟩ : BufTy).Contents (Elt F)),
    unary main_v7 main_v9 (broadcastInDim S325x1 ![0] bcast_S325_S325x1_0 : (⟨S325, .i32⟩ : BufTy).Contents (Elt F) → (⟨S325x1, .i32⟩ : BufTy).Contents (Elt F)),
    binary main_v8 main_v9 main_v10 ((fun a b => concatenate S325x2 1 [⟨S325x1, a⟩, ⟨S325x1, b⟩] concatenates_S325x1_S325x1_S325x2_d1) : (⟨S325x1, .i32⟩ : BufTy).Contents (Elt F) → (⟨S325x1, .i32⟩ : BufTy).Contents (Elt F) → (⟨S325x2, .i32⟩ : BufTy).Contents (Elt F)),
    binary main_v1 main_v10 main_v11 ((fun x i => Host.gather gather_S16384x26x26_S325x2_S16384x325_0_12_n_n_12_1_1638411 x i) : (⟨S16384x26x26, .f32⟩ : BufTy).Contents (Elt F) → (⟨S325x2, .i32⟩ : BufTy).Contents (Elt F) → (⟨S16384x325, .f32⟩ : BufTy).Contents (Elt F)),
    nary ![main_arg0, main_v11, main_arg1] main_v12 (fun u => concatenate S16384x3781 1 [⟨S16384x3328, u 0⟩, ⟨S16384x325, u 1⟩, ⟨S16384x128, u 2⟩] concatenates_S16384x3328_S16384x325_S16384x128_S16384x3781_d1) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., reshape_bufs_sub .., binary_bufs_sub ..,
    nullary_bufs_sub .., unary_bufs_sub .., binary_bufs_sub .., ternary_bufs_sub .., nullary_bufs_sub .., unary_bufs_sub ..,
    binary_bufs_sub .., ternary_bufs_sub .., unary_bufs_sub .., unary_bufs_sub .., binary_bufs_sub .., binary_bufs_sub ..,
    nary_bufs_sub ..⟩

/-- The 325 × 2 table of (first feature, second feature) start indices the gather reads: each constant table passed
    through the host's negative-index wrap (`select false (table + 26) table`), stood up as a column, the two columns
    side by side. -/
def pairTable : (⟨S325x2, .i32⟩ : BufTy).Contents (Elt F) :=
  concatenate S325x2 1
    [⟨S325x1, broadcastInDim S325x1 ![0] bcast_S325_S325x1_0
        (select (constantI S325 1 0#1) (addi (tblFst (F := F)) (broadcastInDim S325 ![] bcast_S_S325 (constantI S_ 32 26#32))) (tblFst (F := F)))⟩,
     ⟨S325x1, broadcastInDim S325x1 ![0] bcast_S325_S325x1_0
        (select (constantI S325 1 0#1) (addi (tblSnd (F := F)) (broadcastInDim S325 ![] bcast_S_S325 (constantI S_ 32 26#32))) (tblSnd (F := F)))⟩]
    concatenates_S325x1_S325x1_S325x2_d1

/-- All inner products of a row's feature vectors: the sparse array read as [16384, 26, 128] and contracted with itself. -/
def gram (a0 : (⟨S16384x3328, .f32⟩ : BufTy).Contents (Elt F)) : (⟨S16384x26x26, .f32⟩ : BufTy).Contents (Elt F) :=
  Host.dotGeneral dot_S16384x26x128_S16384x26x128_S16384x26x26_2_2_1_1_0_0 none
    (shapeCast S16384x26x128 a0 shapeCasts_S16384x3328_S16384x26x128)
    (shapeCast S16384x26x128 a0 shapeCasts_S16384x3328_S16384x26x128)

/-- The reference's result as one term of the argument arrays. -/
def result (a0 : (⟨S16384x3328, .f32⟩ : BufTy).Contents (Elt F)) (a1 : (⟨S16384x128, .f32⟩ : BufTy).Contents (Elt F)) :
    (⟨S16384x3781, .f32⟩ : BufTy).Contents (Elt F) :=
  concatenate S16384x3781 1
    [⟨S16384x3328, a0⟩,
     ⟨S16384x325, Host.gather gather_S16384x26x26_S325x2_S16384x325_0_12_n_n_12_1_1638411 (gram a0) (pairTable (F := F))⟩,
     ⟨S16384x128, a1⟩]
    concatenates_S16384x3328_S16384x325_S16384x128_S16384x3781_d1

/-- On every device, from any memory with zero counters: every weakly fair execution of @main terminates with the
    result buffer at `result` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v12).trans (by
        unfold result gram pairTable
        after_results
        rfl),
      (h c main_arg0).trans (by after_results),
      (h c main_arg1).trans (by after_results)⟩)
    (run_seq scopedRefs_eq scopedSems_eq defs main (fun _ => ops) main_eq (fun _ => ops_sub) m ρ)

end Cert.ReferenceIdeal.RefRun

end
-- ==== Proof.LibGram.lean ====
/-
  Rows stacked along the middle axis of a rank-3 array, and the batched product of such an array with itself, for any
  extents.

  * Two arrays of shapes [n, p, d] and [n, q, d] concatenated along the middle axis give an array of shape [n, r, d]
    (r = p + q).  Read at the coordinates (b, f, e) the result is the first array at (b, f, e) when f < p, and the second
    array at (b, f - p, e) otherwise.
  * The batched contraction "bfe,bge->bfg" of two arrays of shape [n, f, d] (batch axis 0, free axis 1, contracted
    axis 2) has, at the output coordinates (b, i, j), the operand coordinates (b, i, e) on the left and (b, j, e) on the
    right, where e runs over the contracted axis.  So on the extended reals the matrix unit's product into a zero
    accumulator and the host's general dot product are both, at (b, i, j), the sum over e of left(b, i, e) * right(b, j, e).
-/
import Idealize.ShloMosaic.PureOps.Ideal.Laws
import Idealize.ShloMosaic.Lib.ValueIdx
import Idealize.ShloMosaic.Lib.Pipeline.Value

noncomputable section

namespace Idealize.ShloMosaic.GramLib

open Idealize.ShloMosaic Idealize.ShloMosaic.ValueIdx

/-! ## Two arrays stacked along the middle axis -/

section Stack
variable {α : Type} {n p q r d : ℕ}

/-- Below the first extent the stacked array reads the first piece, at the same coordinates. -/
theorem concat_mid_left (x : (⟨3, ![n, p, d]⟩ : Shape).Idx → α) (y : (⟨3, ![n, q, d]⟩ : Shape).Idx → α)
    (h : Shape.Concatenates [(⟨3, ![n, p, d]⟩ : Shape), ⟨3, ![n, q, d]⟩] ⟨3, ![n, r, d]⟩ 1)
    (b : Fin n) (f : Fin r) (e : Fin d) (hf : f.val < p) :
    concatenate ⟨3, ![n, r, d]⟩ 1 [⟨⟨3, ![n, p, d]⟩, x⟩, ⟨⟨3, ![n, q, d]⟩, y⟩] h (ix3 b f e) = x (ix3 b ⟨f.val, hf⟩ e) :=
  concatenate_pair_apply_left (t := ⟨3, ![n, r, d]⟩) (s₁ := ⟨3, ![n, p, d]⟩) (s₂ := ⟨3, ![n, q, d]⟩) 1 x y h (ix3 b f e) rfl
    (ix3 b ⟨f.val, hf⟩ e) (fun ax => by
      match ax with
      | ⟨0, _⟩ => rfl
      | ⟨1, _⟩ => rfl
      | ⟨2, _⟩ => rfl)

/-- From the first extent on it reads the second piece, the middle coordinate the first extent less. -/
theorem concat_mid_right (x : (⟨3, ![n, p, d]⟩ : Shape).Idx → α) (y : (⟨3, ![n, q, d]⟩ : Shape).Idx → α)
    (h : Shape.Concatenates [(⟨3, ![n, p, d]⟩ : Shape), ⟨3, ![n, q, d]⟩] ⟨3, ![n, r, d]⟩ 1)
    (b : Fin n) (f : Fin r) (e : Fin d) (hf : p ≤ f.val) (hq : f.val - p < q) :
    concatenate ⟨3, ![n, r, d]⟩ 1 [⟨⟨3, ![n, p, d]⟩, x⟩, ⟨⟨3, ![n, q, d]⟩, y⟩] h (ix3 b f e) = y (ix3 b ⟨f.val - p, hq⟩ e) :=
  concatenate_pair_apply_right (t := ⟨3, ![n, r, d]⟩) (s₁ := ⟨3, ![n, p, d]⟩) (s₂ := ⟨3, ![n, q, d]⟩) 1 x y h (ix3 b f e) rfl rfl
    (ix3 b ⟨f.val - p, hq⟩ e) (fun ax hax => by
      match ax with
      | ⟨0, _⟩ => rfl
      | ⟨1, _⟩ => exact absurd rfl hax
      | ⟨2, _⟩ => rfl)
    (by show (f.val - p) + p = f.val; omega)

end Stack

/-! ## The batched product of an [n, f, d] array with another, contracted over the last axis -/

section Dims
variable {n f d : ℕ}

/-- The dimension numbers of "bfe,bge->bfg": contracted axes 2 and 2, free axes 1 and 1, batch axes 0 and 0. -/
def gramDims (n f d : ℕ)
    (wf : DotDims.WF (⟨3, ![n, f, d]⟩ : Shape) ⟨3, ![n, f, d]⟩ ⟨3, ![n, f, f]⟩ [2] [2] [1] [1] [0] [0]) :
    DotDims ⟨3, ![n, f, d]⟩ ⟨3, ![n, f, d]⟩ ⟨3, ![n, f, f]⟩ where
  lhsContracting := [2]
  rhsContracting := [2]
  lhsNonContracting := [1]
  rhsNonContracting := [1]
  lhsBatch := [0]
  rhsBatch := [0]
  wf := wf

variable (wf : DotDims.WF (⟨3, ![n, f, d]⟩ : Shape) ⟨3, ![n, f, d]⟩ ⟨3, ![n, f, f]⟩ [2] [2] [1] [1] [0] [0])

/-- The left operand's coordinates: the batch and the first free coordinate of the output, and the contraction's. -/
theorem lhs_batch (j : (⟨3, ![n, f, f]⟩ : Shape).Idx) (k : (gramDims n f d wf).contr.Idx) :
    ((gramDims n f d wf).lhsIdx j k 0 : ℕ) = j 0 := by
  simp [DotDims.lhsIdx, gramDims] <;> rfl
theorem lhs_free (j : (⟨3, ![n, f, f]⟩ : Shape).Idx) (k : (gramDims n f d wf).contr.Idx) :
    ((gramDims n f d wf).lhsIdx j k 1 : ℕ) = j 1 := by
  simp [DotDims.lhsIdx, gramDims] <;> rfl
/-- The right operand's: the batch and the SECOND free coordinate of the output, and the contraction's. -/
theorem rhs_batch (j : (⟨3, ![n, f, f]⟩ : Shape).Idx) (k : (gramDims n f d wf).contr.Idx) :
    ((gramDims n f d wf).rhsIdx j k 0 : ℕ) = j 0 := by
  simp [DotDims.rhsIdx, gramDims] <;> rfl
theorem rhs_free (j : (⟨3, ![n, f, f]⟩ : Shape).Idx) (k : (gramDims n f d wf).contr.Idx) :
    ((gramDims n f d wf).rhsIdx j k 1 : ℕ) = j 2 := by
  simp [DotDims.rhsIdx, gramDims] <;> rfl

theorem contr_rank : (gramDims n f d wf).contr.rank = 1 := (gramDims n f d wf).rank_contr

theorem contr_size : (gramDims n f d wf).contr.size ⟨0, by rw [contr_rank]; exact Nat.one_pos⟩ = d :=
  (gramDims n f d wf).size_contr 0 Nat.one_pos

/-- The contraction's indices are the coordinates of the last axis. -/
def contrFin : (gramDims n f d wf).contr.Idx ≃ Fin d :=
  contrEquiv1 (gramDims n f d wf) d (contr_rank wf) (contr_size wf)

theorem lhs_at (b : Fin n) (i j : Fin f) (e : Fin d) :
    (gramDims n f d wf).lhsIdx (ix3 b i j) ((contrFin wf).symm e) = ix3 b i e := by
  funext a
  apply Fin.ext
  match a with
  | ⟨0, _⟩ => exact lhs_batch wf (ix3 b i j) _
  | ⟨1, _⟩ => exact lhs_free wf (ix3 b i j) _
  | ⟨2, _⟩ =>
    exact ((gramDims n f d wf).lhsIdx_val_of_single (cl := 2) rfl (ix3 b i j) _).trans
      (contrEquiv1_symm_val (gramDims n f d wf) d (contr_rank wf) (contr_size wf) e)

theorem rhs_at (b : Fin n) (i j : Fin f) (e : Fin d) :
    (gramDims n f d wf).rhsIdx (ix3 b i j) ((contrFin wf).symm e) = ix3 b j e := by
  funext a
  apply Fin.ext
  match a with
  | ⟨0, _⟩ => exact rhs_batch wf (ix3 b i j) _
  | ⟨1, _⟩ => exact rhs_free wf (ix3 b i j) _
  | ⟨2, _⟩ =>
    exact ((gramDims n f d wf).rhsIdx_val_of_single (cr := 2) rfl (ix3 b i j) _).trans
      (contrEquiv1_symm_val (gramDims n f d wf) d (contr_rank wf) (contr_size wf) e)

/-- The contraction at the output coordinates (b, i, j), as a sum over the last axis. -/
theorem sum_contr {M : Type} [AddCommMonoid M] (F : (⟨3, ![n, f, d]⟩ : Shape).Idx → (⟨3, ![n, f, d]⟩ : Shape).Idx → M)
    (b : Fin n) (i j : Fin f) :
    (∑ k : (gramDims n f d wf).contr.Idx,
        F ((gramDims n f d wf).lhsIdx (ix3 b i j) k) ((gramDims n f d wf).rhsIdx (ix3 b i j) k))
      = ∑ e : Fin d, F (ix3 b i e) (ix3 b j e) := by
  rw [← Equiv.sum_comp (contrFin wf).symm]
  exact Finset.sum_congr rfl fun e _ => by rw [lhs_at, rhs_at]

variable {φ₁ φ₂ : FTy}

/-- The matrix unit's product into a zero accumulator, on the extended reals, at (b, i, j). -/
theorem matmul_zero_apply (prec : Option ContractPrecision) (lhs : FVec Ideal ⟨3, ![n, f, d]⟩ φ₁)
    (rhs : FVec Ideal ⟨3, ![n, f, d]⟩ φ₂) (b : Fin n) (i j : Fin f) :
    FloatOps.matmul (gramDims n f d wf) prec lhs rhs (constant ⟨3, ![n, f, f]⟩ .f32 0x00000000#32) (ix3 b i j)
      = ∑ e : Fin d, lhs (ix3 b i e) * rhs (ix3 b j e) :=
  (Ideal.matmul_constant_zero_apply (gramDims n f d wf) prec lhs rhs (ix3 b i j)).trans
    (sum_contr wf (fun u v => lhs u * rhs v) b i j)

/-- The host's general dot product, on the extended reals, at (b, i, j): the same sum. -/
theorem dotGeneral_apply (prec : Option ContractPrecision) (sched : HostSchedule) (lhs : FVec Ideal ⟨3, ![n, f, d]⟩ φ₁)
    (rhs : FVec Ideal ⟨3, ![n, f, d]⟩ φ₂) (b : Fin n) (i j : Fin f) :
    FloatOps.dotGeneral (gramDims n f d wf) prec sched lhs rhs (ix3 b i j)
      = ∑ e : Fin d, lhs (ix3 b i e) * rhs (ix3 b j e) :=
  (Ideal.dotGeneral_apply (gramDims n f d wf) prec sched lhs rhs (ix3 b i j)).trans
    (sum_contr wf (fun u v => lhs u * rhs v) b i j)

end Dims

end Idealize.ShloMosaic.GramLib

end
-- ==== Proof.RefValue.lean ====
/-
  The reference's result term, on the extended reals, is `interact` of the argument arrays, index by index.

  Column `c` of a result row falls in one of the three pieces laid side by side. In the middle piece, column
  `3328 + p` holds the gathered entry of the 26 × 26 table of inner products at the `p`-th (first, second) pair of the
  constant tables, and those tables list exactly the strict upper triangle row by row (decided over the 325 pairs).
  The table of inner products at (r, f, g) is `∑ₖ x[r, 128 f + k] · x[r, 128 g + k]`: the contraction over the last axis
  of the sparse array read as [16384, 26, 128].
-/
import proofs.«141904_j12283606468241_2_alg».proof.Proof.RefRun
import proofs.«141904_j12283606468241_2_alg».proof.Proof.PairSpec
import proofs.«141904_j12283606468241_2_alg».proof.Proof.LibGram
import proofs.«141904_j12283606468241_2_alg».proof.Proof.LibLaneBlocks
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.RefRun Cert.Interaction
open Idealize.ShloMosaic Idealize.ShloMosaic.ValueIdx Idealize.ShloMosaic.LaneBlocks

/-- The gather's dimension numbers: the whole first axis kept, one entry picked on each of the two table axes. -/
abbrev gd := gather_S16384x26x26_S325x2_S16384x325_0_12_n_n_12_1_1638411

/-- The gather at (r, p): the table entry of row `r` at the `p`-th pair of start indices, each read signed and clamped
    into 0 … 25. -/
theorem gather_apply {α : Type} (g : S16384x26x26.Idx → α) (idx : IVec S325x2 32) (r : Fin 16384) (p : Fin 325)
    (i j : Fin 26) (hi : i.val = min (idx (ix2 p 0)).toInt.toNat 25) (hj : j.val = min (idx (ix2 p 1)).toInt.toNat 25) :
    Host.gather gd g idx (ix2 r p) = g (ix3 r i j) := by
  unfold Host.gather
  refine congrArg g (funext fun a => Fin.ext ?_)
  match a with
  | ⟨0, _⟩ =>
    show gd.start (ix2 r p) idx 0 + gd.batchCoord (ix2 r p) 0 + gd.offCoord (ix2 r p) 0 = r.val
    rw [GatherDims.batchCoord_eq_zero _ _ _ List.not_mem_nil]
    have hs : gd.start (ix2 r p) idx 0 = 0 := by
      unfold GatherDims.start
      rw [dif_neg (by decide)]
    have ho : gd.offCoord (ix2 r p) 0 = r.val := by
      unfold GatherDims.offCoord
      rw [dif_pos (by decide)]
      rfl
    rw [hs, ho]
    omega
  | ⟨1, _⟩ =>
    show gd.start (ix2 r p) idx 1 + gd.batchCoord (ix2 r p) 1 + gd.offCoord (ix2 r p) 1 = i.val
    rw [GatherDims.batchCoord_eq_zero _ _ _ List.not_mem_nil, GatherDims.offCoord_eq_zero _ _ _ (by decide)]
    unfold GatherDims.start
    rw [dif_pos (by decide)]
    have hsi : gd.siIdx (ix2 r p) ⟨List.idxOf (1 : Fin 3) gd.startIndexMap, by decide⟩ = ix2 p 0 := by
      funext b
      refine Fin.ext ?_
      match b with
      | ⟨0, _⟩ => rfl
      | ⟨1, _⟩ => rfl
    rw [hsi, hi]
    rfl
  | ⟨2, _⟩ =>
    show gd.start (ix2 r p) idx 2 + gd.batchCoord (ix2 r p) 2 + gd.offCoord (ix2 r p) 2 = j.val
    rw [GatherDims.batchCoord_eq_zero _ _ _ List.not_mem_nil, GatherDims.offCoord_eq_zero _ _ _ (by decide)]
    unfold GatherDims.start
    rw [dif_pos (by decide)]
    have hsi : gd.siIdx (ix2 r p) ⟨List.idxOf (2 : Fin 3) gd.startIndexMap, by decide⟩ = ix2 p 1 := by
      funext b
      refine Fin.ext ?_
      match b with
      | ⟨0, _⟩ => rfl
      | ⟨1, _⟩ => rfl
    rw [hsi, hj]
    rfl

/-- A table stood up as a column, after the host's wrap of negative indices (none is negative: the guard is the
    constant `false`), reads the table. -/
theorem column_apply (tbl : (⟨S325, .i32⟩ : BufTy).Contents (Elt Ideal)) (p : Fin 325) :
    broadcastInDim S325x1 ![0] bcast_S325_S325x1_0
        (select (constantI S325 1 0#1) (addi tbl (broadcastInDim S325 ![] bcast_S_S325 (constantI S_ 32 26#32))) tbl)
        (ix2 p (0 : Fin 1))
      = tbl (ix1 p) := by
  refine (broadcastInDim_apply _ _ _ (ix2 p (0 : Fin 1)) (ix1 p) (fun a => by
    match a with
    | ⟨0, _⟩ => rfl)).trans ?_
  rw [select_apply, constantI_apply]
  unfold Scalar.select
  rw [if_neg (by decide)]

theorem rowMajor_ix1 (p : Fin 325) : S325.rowMajor (ix1 p) = p :=
  Fin.ext (by rw [Shape.rowMajor_val_one])

/-- The first column of the table of start indices is the table of first features … -/
theorem pairTable_fst (p : Fin 325) : pairTable (F := Ideal) (ix2 p 0) = lit0 p := by
  unfold pairTable
  refine (concatenate_pair_apply_left (t := S325x2) (s₁ := S325x1) (s₂ := S325x1) 1 _ _ _ (ix2 p 0) rfl (ix2 p (0 : Fin 1))
    (fun b => by
      match b with
      | ⟨0, _⟩ => rfl
      | ⟨1, _⟩ => rfl)).trans ?_
  rw [column_apply]
  show lit0 (S325.rowMajor (ix1 p)) = lit0 p
  rw [rowMajor_ix1]

/-- … and the second column the table of second features. -/
theorem pairTable_snd (p : Fin 325) : pairTable (F := Ideal) (ix2 p 1) = lit1 p := by
  unfold pairTable
  refine (concatenate_pair_apply_right (t := S325x2) (s₁ := S325x1) (s₂ := S325x1) 1 _ _ _ (ix2 p 1) rfl rfl (ix2 p (0 : Fin 1))
    (fun b hb => by
      match b with
      | ⟨0, _⟩ => rfl
      | ⟨1, _⟩ => exact absurd rfl hb)
    (by show 0 + 1 = 1; rfl)).trans ?_
  rw [column_apply]
  show lit1 (S325.rowMajor (ix1 p)) = lit1 p
  rw [rowMajor_ix1]

/-- The two constant tables list the strict upper triangle row by row (and no entry is clamped). -/
theorem table_facts : ∀ p : Fin 325, min (lit0 p).toInt.toNat 25 = (pairAt p.val).1.val
    ∧ min (lit1 p).toInt.toNat 25 = (pairAt p.val).2.val := by
  decide +kernel

/-- The table of inner products at (r, f, g). -/
theorem gram_apply (a0 : FVec Ideal S16384x3328 .f32) (r : Fin 16384) (f g : Fin 26) :
    gram (F := Ideal) a0 (ix3 r f g) = dotPair a0 r f g := by
  unfold gram
  refine (GramLib.dotGeneral_apply (n := 16384) (f := 26) (d := 128)
    Facts₀.dot_S16384x26x128_S16384x26x128_S16384x26x26_2_2_1_1_0_0_wf none _ _ _ r f g).trans ?_
  refine Finset.sum_congr rfl fun k _ => ?_
  rw [shapeCast_blocks_apply a0 shapeCasts_S16384x3328_S16384x26x128 rfl r f k,
    shapeCast_blocks_apply a0 shapeCasts_S16384x3328_S16384x26x128 rfl r g k]
  rfl

/-- The reference's result is `interact` of its arguments. -/
theorem result_eq (a0 : FVec Ideal S16384x3328 .f32) (a1 : FVec Ideal S16384x128 .f32) :
    RefRun.result (F := Ideal) a0 a1 = interact a0 a1 := by
  funext i
  obtain ⟨r, c, rfl⟩ : ∃ (r : Fin 16384) (c : Fin 3781), i = ix2 r c := ⟨i 0, i 1, eq_ix2 i⟩
  rw [interact_ix2]
  unfold RefRun.result
  by_cases h1 : c.val < 3328
  · rw [interactAt_sparse _ _ _ _ h1]
    exact concatenate_apply_piece (t := S16384x3781) 1 _ _ (ix2 r c) 0 (by simp) S16384x3328 a0 rfl rfl 0 rfl
      (ix2 r ⟨c.val, h1⟩) (fun b hb => by
        match b with
        | ⟨0, _⟩ => rfl
        | ⟨1, _⟩ => exact absurd rfl hb)
      (by show 0 + c.val = c.val; omega)
  · by_cases h2 : c.val < 3653
    · rw [interactAt_pair _ _ _ _ (by omega) h2]
      have hp : c.val - 3328 < 325 := by omega
      refine (concatenate_apply_piece (t := S16384x3781) 1 _ _ (ix2 r c) 1 (by simp) S16384x325 _ rfl rfl 3328 rfl
        (ix2 r ⟨c.val - 3328, hp⟩) (fun b hb => by
          match b with
          | ⟨0, _⟩ => rfl
          | ⟨1, _⟩ => exact absurd rfl hb)
        (by show 3328 + (c.val - 3328) = c.val; omega)).trans ?_
      obtain ⟨t1, t2⟩ := table_facts ⟨c.val - 3328, hp⟩
      refine (gather_apply _ _ r ⟨c.val - 3328, hp⟩ (pairAt (c.val - 3328)).1 (pairAt (c.val - 3328)).2 ?_ ?_).trans
        (gram_apply a0 r _ _)
      · rw [pairTable_fst]; exact t1.symm
      · rw [pairTable_snd]; exact t2.symm
    · rw [interactAt_dense _ _ _ _ (by omega)]
      exact concatenate_apply_piece (t := S16384x3781) 1 _ _ (ix2 r c) 2 (by simp) S16384x128 a1 rfl rfl 3653 rfl
        (ix2 r ⟨c.val - 3653, by omega⟩) (fun b hb => by
          match b with
          | ⟨0, _⟩ => rfl
          | ⟨1, _⟩ => exact absurd rfl hb)
        (by show 3653 + (c.val - 3653) = c.val; omega)

end Cert.ReferenceIdeal.RefValue

end
-- ==== Proof.lean ====
/-
  The kernel and the reference compute one function of the two argument arrays — `interact`: each result row is the
  sparse row, then the inner products `∑ₖ x[f,k] · x[g,k]` of the row's 26 feature vectors over the pairs `f < g` of the
  strict upper triangle taken row by row, then the dense row.

  The kernel works on blocks of 512 rows. Its body copies the sparse and the dense block to their columns of the output
  block and, for each first feature `f`, forms the `25 − f` inner products with the later features at once (copies of
  feature `f`'s lanes side by side, times the later features' lanes, summed over each feature's 128 lanes) and stores them
  at row `f` of the triangle's columns; the 27 stored pieces cover the block, and the 32 blocks cover the array. The
  reference forms all 26 × 26 inner products by one batched contraction and gathers the 325 of the triangle through two
  constant tables, which list the triangle row by row. Both sums run over the same 128 products, so no law beyond
  reading the two programs index by index is needed, and the finiteness of the inputs is not used.
-/
import proofs.«141904_j12283606468241_2_alg».proof.Defs
import proofs.«141904_j12283606468241_2_alg».proof.Proof.Gen.Kernel
import proofs.«141904_j12283606468241_2_alg».proof.Proof.Gen.KernelIdeal
import proofs.«141904_j12283606468241_2_alg».proof.Proof.Gen.ReferenceIdeal
import proofs.«141904_j12283606468241_2_alg».proof.Proof.Gen.Pre_finite_inputs
import proofs.«141904_j12283606468241_2_alg».proof.Proof.FrameBitsP
import proofs.«141904_j12283606468241_2_alg».proof.Proof.KernelValue
import proofs.«141904_j12283606468241_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.GenP.frame m ρ

/-- So does the kernel read on the extended reals. -/
theorem frame_kernelIdeal : Cert.frame_KernelIdeal := fun m ρ _ => Cert.KernelIdeal.GenP.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- On the extended reals the kernel's result array ends at `interact` of its arguments, and the reference's at its result
    term of arguments that agree with them, which is `interact` of them too. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
